-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x128x128 : Shape := ⟨4, ![64, 64, 128, 128]⟩
abbrev S64x64 : Shape := ⟨2, ![64, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S64x64x128x128 : S_.BroadcastsInDim S64x64x128x128 (![] : Fin 0 → Fin S64x64x128x128.rank)
  reducesTo_S64x64x128x128_S_d0_1_2_3 : S64x64x128x128.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S64x64x128x128 .f32) (main_arg1 : FVec F S64x64 .f32) (main_arg2 : FVec F S256x128 .f32) (main_arg3 : FVec F S128 .f32) (main_arg4 : FVec F S128x64 .f32) (main_arg5 : FVec F S64 .f32) (main_arg6 : FVec F S64x1 .f32) (main_arg7 : FVec F S1 .f32) : IVec S_ 1 :=
  let main_v0 : FVec F S64x64x128x128 .f32 := Host.absf main_arg0
  let main_cst : FVec F S_ .f32 := constant S_ .f32 0x7F800000#32
  let main_v1 : FVec F S64x64x128x128 .f32 := broadcastInDim S64x64x128x128 ![] bcast_S_S64x64x128x128 main_cst
  let main_v2 : IVec S64x64x128x128 1 := cmpf .olt main_v0 main_v1
  let main_c : IVec S_ 1 := constantI S_ 1 1#1
  let main_v3 : IVec S_ 1 := (fun x v => Host.reduce IntOp.andi x v reducesTo_S64x64x128x128_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S64x64x128x128 : Shape := ⟨4, ![64, 64, 128, 128]⟩
abbrev S64x64 : Shape := ⟨2, ![64, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x64x64 : Shape := ⟨3, ![64, 64, 64]⟩
abbrev S2x64x128x128 : Shape := ⟨4, ![2, 64, 128, 128]⟩
abbrev S2x64x64 : Shape := ⟨3, ![2, 64, 64]⟩
abbrev S2x64x128 : Shape := ⟨3, ![2, 64, 128]⟩
abbrev S128x128 : Shape := ⟨2, ![128, 128]⟩
abbrev S2x64x1x128 : Shape := ⟨4, ![2, 64, 1, 128]⟩
abbrev S2x1x64x128 : Shape := ⟨4, ![2, 1, 64, 128]⟩
abbrev S2x64x64x128 : Shape := ⟨4, ![2, 64, 64, 128]⟩
abbrev S1x1x1x128 : Shape := ⟨4, ![1, 1, 1, 128]⟩
abbrev S8192x128 : Shape := ⟨2, ![8192, 128]⟩
abbrev S8192x64 : Shape := ⟨2, ![8192, 64]⟩
abbrev S1x64 : Shape := ⟨2, ![1, 64]⟩
abbrev S2x64x64x64 : Shape := ⟨4, ![2, 64, 64, 64]⟩
abbrev S1x1x1x64 : Shape := ⟨4, ![1, 1, 1, 64]⟩
abbrev S1x64x64 : Shape := ⟨3, ![1, 64, 64]⟩
abbrev S2x64 : Shape := ⟨2, ![2, 64]⟩
abbrev S2x64x1 : Shape := ⟨3, ![2, 64, 1]⟩

abbrev nBuf : Space → Nat
  | .hbm => 12
  | .vmem => 11
  | .smem => 0
  | _ => 0

abbrev bufTy : (tb : Table) → Fin (tcTables nBuf tb) → BufTy
  | .hbm, ⟨0, _⟩ => ⟨S64x64x128x128, .f32⟩
  | .hbm, ⟨1, _⟩ => ⟨S64x64, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S256x128, .bf16⟩
  | .hbm, ⟨9, _⟩ => ⟨S128x64, .bf16⟩
  | .hbm, ⟨10, _⟩ => ⟨S64x1, .bf16⟩
  | .hbm, ⟨11, _⟩ => ⟨S64x64x64, .f32⟩
  | .local _ .vmem, ⟨0, _⟩ => ⟨S2x64x128x128, .f32⟩
  | .local _ .vmem, ⟨1, _⟩ => ⟨S2x64x128x128, .f32⟩
  | .local _ .vmem, ⟨2, _⟩ => ⟨S64x64, .f32⟩
  | .local _ .vmem, ⟨3, _⟩ => ⟨S256x128, .bf16⟩
  | .local _ .vmem, ⟨4, _⟩ => ⟨S128, .f32⟩
  | .local _ .vmem, ⟨5, _⟩ => ⟨S128x64, .bf16⟩
  | .local _ .vmem, ⟨6, _⟩ => ⟨S64, .f32⟩
  | .local _ .vmem, ⟨7, _⟩ => ⟨S64x1, .bf16⟩
  | .local _ .vmem, ⟨8, _⟩ => ⟨S1, .f32⟩
  | .local _ .vmem, ⟨9, _⟩ => ⟨S2x64x64, .f32⟩
  | .local _ .vmem, ⟨10, _⟩ => ⟨S2x64x64, .f32⟩
  | _, _ => ⟨S64x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S2x64x128x128_S2x64x128x128_0_0_0_0 : ∀ a, (![0, 0, 0, 0] : Fin 4 → Nat) a + S2x64x128x128.size a ≤ S2x64x128x128.size a
  h_S2x64x128x128 : 0 < S2x64x128x128.numel
  reduces_S2x64x128x128_S2x64x128 : S2x64x128x128.Reduces [3] S2x64x128
  shapeCasts_S2x64x128_S128x128 : S2x64x128.ShapeCasts S128x128
  inb_S256x128_S128x128_0_0 : ∀ a, (![0, 0] : Fin 2 → Nat) a + S128x128.size a ≤ S256x128.size a
  h_S128x128 : 0 < S128x128.numel
  shapeCasts_S128x128_S128x128 : S128x128.ShapeCasts S128x128
  inb_S256x128_S128x128_128_0 : ∀ a, (![128, 0] : Fin 2 → Nat) a + S128x128.size a ≤ S256x128.size a
  shapeCasts_S128x128_S2x64x128 : S128x128.ShapeCasts S2x64x128
  inb_S128_S128_0 : ∀ a, (![0] : Fin 1 → Nat) a + S128.size a ≤ S128.size a
  h_S128 : 0 < S128.numel
  shapeCasts_S2x64x128_S2x64x1x128 : S2x64x128.ShapeCasts S2x64x1x128
  shapeCasts_S2x64x128_S2x1x64x128 : S2x64x128.ShapeCasts S2x1x64x128
  broadcasts_S2x64x1x128_S2x64x64x128 : S2x64x1x128.Broadcasts S2x64x64x128
  broadcasts_S2x1x64x128_S2x64x64x128 : S2x1x64x128.Broadcasts S2x64x64x128
  shapeCasts_S128_S1x1x1x128 : S128.ShapeCasts S1x1x1x128
  broadcasts_S1x1x1x128_S2x64x64x128 : S1x1x1x128.Broadcasts S2x64x64x128
  shapeCasts_S2x64x64x128_S8192x128 : S2x64x64x128.ShapeCasts S8192x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  shapeCasts_S8192x64_S2x64x64x64 : S8192x64.ShapeCasts S2x64x64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S64 : S64x1.ShapeCasts S64
  inb_S1_S1_0 : ∀ a, (![0] : Fin 1 → Nat) a + S1.size a ≤ S1.size a
  h_S1 : 0 < S1.numel
  shapeCasts_S64_S1x1x1x64 : S64.ShapeCasts S1x1x1x64
  broadcasts_S1x1x1x64_S2x64x64x64 : S1x1x1x64.Broadcasts S2x64x64x64
  reduces_S2x64x64x64_S2x64x64 : S2x64x64x64.Reduces [3] S2x64x64
  inpos_S1_p0 : ∀ a, (![0] : Fin 1 → Nat) a < S1.size a
  inb_S64x64_S64x64_0_0 : ∀ a, (![0, 0] : Fin 2 → Nat) a + S64x64.size a ≤ S64x64.size a
  h_S64x64 : 0 < S64x64.numel
  shapeCasts_S64x64_S1x64x64 : S64x64.ShapeCasts S1x64x64
  broadcasts_S1x64x64_S2x64x64 : S1x64x64.Broadcasts S2x64x64
  transposes_S2x64x64_p0_2_1_S2x64x64 : S2x64x64.Transposes [0, 2, 1] S2x64x64
  iota_S64x64_d0_w32 : S64x64.Iotas .tc 32 [0]
  iota_S64x64_d1_w32 : S64x64.Iotas .tc 32 [1]
  reduces_S2x64x64_S2x64 : S2x64x64.Reduces [2] S2x64
  shapeCasts_S2x64_S2x64x1 : S2x64.ShapeCasts S2x64x1
  broadcasts_S2x64x1_S2x64x64 : S2x64x1.Broadcasts S2x64x64
  inb_S2x64x64_S2x64x64_0_0_0 : ∀ a, (![0, 0, 0] : Fin 3 → Nat) a + S2x64x64.size a ≤ S2x64x64.size a
  h_S2x64x64 : 0 < S2x64x64.numel
  dot_S128x128_S128x128_S128x128_1_0_0_1_n_n_wf : DotDims.WF S128x128 S128x128 S128x128 [1] [0] [0] [1] [] []
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x128x128.size a ≤ S64x64x128x128.size a
  hwx0_0 : ∀ i : grid0.Coords, EltTy.bits .f32 = 32 ∨ (Rect.block (s := S64x64x128x128) S2x64x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .bf16 = 32 ∨ (Rect.block (s := S64x1) S64x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x64x64.size a ≤ S64x64x64.size a
  hwx0_8 : ∀ i : grid0.Coords, EltTy.bits .f32 = 32 ∨ (Rect.block (s := S64x64x64) S2x64x64.size (cc0_transform_8 i) (hinb0_8 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_arg0) S2x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S2x64x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x64x128x128 : Shape := ⟨4, ![64, 64, 128, 128]⟩
abbrev S64x64 : Shape := ⟨2, ![64, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S64x64x128 : Shape := ⟨3, ![64, 64, 128]⟩
abbrev S128x128 : Shape := ⟨2, ![128, 128]⟩
abbrev S64x64x1x128 : Shape := ⟨4, ![64, 64, 1, 128]⟩
abbrev S64x1x64x128 : Shape := ⟨4, ![64, 1, 64, 128]⟩
abbrev S64x64x64x128 : Shape := ⟨4, ![64, 64, 64, 128]⟩
abbrev S1x1x1x128 : Shape := ⟨4, ![1, 1, 1, 128]⟩
abbrev S64x64x64x64 : Shape := ⟨4, ![64, 64, 64, 64]⟩
abbrev S1x1x1x64 : Shape := ⟨4, ![1, 1, 1, 64]⟩
abbrev S64x64x64x1 : Shape := ⟨4, ![64, 64, 64, 1]⟩
abbrev S1x1x1x1 : Shape := ⟨4, ![1, 1, 1, 1]⟩
abbrev S64x64x64 : Shape := ⟨3, ![64, 64, 64]⟩
abbrev S1x64x64 : Shape := ⟨3, ![1, 64, 64]⟩
abbrev S64x64x1 : Shape := ⟨3, ![64, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S64x64x128x128, .f32⟩
  | .hbm, ⟨1, _⟩ => ⟨S64x64, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .f32⟩
  | .hbm, ⟨9, _⟩ => ⟨S64x64x128, .f32⟩
  | .hbm, ⟨10, _⟩ => ⟨S_, .f32⟩
  | .hbm, ⟨11, _⟩ => ⟨S64x64x128, .f32⟩
  | .hbm, ⟨12, _⟩ => ⟨S64x64x128, .f32⟩
  | .hbm, ⟨13, _⟩ => ⟨S128x128, .f32⟩
  | .hbm, ⟨14, _⟩ => ⟨S128x128, .f32⟩
  | .hbm, ⟨15, _⟩ => ⟨S64x64x128, .f32⟩
  | .hbm, ⟨16, _⟩ => ⟨S64x64x128, .f32⟩
  | .hbm, ⟨17, _⟩ => ⟨S64x64x1x128, .f32⟩
  | .hbm, ⟨18, _⟩ => ⟨S64x1x64x128, .f32⟩
  | .hbm, ⟨19, _⟩ => ⟨S64x64x64x128, .f32⟩
  | .hbm, ⟨20, _⟩ => ⟨S64x64x64x128, .f32⟩
  | .hbm, ⟨21, _⟩ => ⟨S64x64x64x128, .f32⟩
  | .hbm, ⟨22, _⟩ => ⟨S1x1x1x128, .f32⟩
  | .hbm, ⟨23, _⟩ => ⟨S64x64x64x128, .f32⟩
  | .hbm, ⟨24, _⟩ => ⟨S64x64x64x128, .f32⟩
  | .hbm, ⟨25, _⟩ => ⟨S_, .f32⟩
  | .hbm, ⟨26, _⟩ => ⟨S64x64x64x128, .f32⟩
  | .hbm, ⟨27, _⟩ => ⟨S64x64x64x128, .f32⟩
  | .hbm, ⟨28, _⟩ => ⟨S64x64x64x64, .f32⟩
  | .hbm, ⟨29, _⟩ => ⟨S1x1x1x64, .f32⟩
  | .hbm, ⟨30, _⟩ => ⟨S64x64x64x64, .f32⟩
  | .hbm, ⟨31, _⟩ => ⟨S64x64x64x64, .f32⟩
  | .hbm, ⟨32, _⟩ => ⟨S_, .f32⟩
  | .hbm, ⟨33, _⟩ => ⟨S64x64x64x64, .f32⟩
  | .hbm, ⟨34, _⟩ => ⟨S64x64x64x64, .f32⟩
  | .hbm, ⟨35, _⟩ => ⟨S64x64x64x1, .f32⟩
  | .hbm, ⟨36, _⟩ => ⟨S1x1x1x1, .f32⟩
  | .hbm, ⟨37, _⟩ => ⟨S64x64x64x1, .f32⟩
  | .hbm, ⟨38, _⟩ => ⟨S64x64x64x1, .f32⟩
  | .hbm, ⟨39, _⟩ => ⟨S64x64x64, .f32⟩
  | .hbm, ⟨40, _⟩ => ⟨S1x64x64, .f32⟩
  | .hbm, ⟨41, _⟩ => ⟨S_, .f32⟩
  | .hbm, ⟨42, _⟩ => ⟨S1x64x64, .f32⟩
  | .hbm, ⟨43, _⟩ => ⟨S1x64x64, .f32⟩
  | .hbm, ⟨44, _⟩ => ⟨S_, .f32⟩
  | .hbm, ⟨45, _⟩ => ⟨S64x64x64, .f32⟩
  | .hbm, ⟨46, _⟩ => ⟨S64x64x64, .f32⟩
  | .hbm, ⟨47, _⟩ => ⟨S64x64x64, .f32⟩
  | .hbm, ⟨48, _⟩ => ⟨S64x64x64, .f32⟩
  | .hbm, ⟨49, _⟩ => ⟨S64x64x64, .f32⟩
  | .hbm, ⟨50, _⟩ => ⟨S64x64x64, .f32⟩
  | .hbm, ⟨51, _⟩ => ⟨S_, .f32⟩
  | .hbm, ⟨52, _⟩ => ⟨S64x64x64, .f32⟩
  | .hbm, ⟨53, _⟩ => ⟨S64x64x64, .f32⟩
  | .hbm, ⟨54, _⟩ => ⟨S_, .f32⟩
  | .hbm, ⟨55, _⟩ => ⟨S64x64x64, .f32⟩
  | .hbm, ⟨56, _⟩ => ⟨S64x64x64, .f32⟩
  | .hbm, ⟨57, _⟩ => ⟨S64x64, .i32⟩
  | .hbm, ⟨58, _⟩ => ⟨S64x64, .i32⟩
  | .hbm, ⟨59, _⟩ => ⟨S_, .i32⟩
  | .hbm, ⟨60, _⟩ => ⟨S64x64, .i32⟩
  | .hbm, ⟨61, _⟩ => ⟨S64x64, .i32⟩
  | .hbm, ⟨62, _⟩ => ⟨S64x64, .i1⟩
  | .hbm, ⟨63, _⟩ => ⟨S64x64, .f32⟩
  | .hbm, ⟨64, _⟩ => ⟨S1x64x64, .f32⟩
  | .hbm, ⟨65, _⟩ => ⟨S64x64x64, .f32⟩
  | .hbm, ⟨66, _⟩ => ⟨S64x64x64, .f32⟩
  | .hbm, ⟨67, _⟩ => ⟨S_, .f32⟩
  | .hbm, ⟨68, _⟩ => ⟨S64x64, .f32⟩
  | .hbm, ⟨69, _⟩ => ⟨S64x64x1, .f32⟩
  | .hbm, ⟨70, _⟩ => ⟨S_, .f32⟩
  | .hbm, ⟨71, _⟩ => ⟨S64x64x1, .f32⟩
  | .hbm, ⟨72, _⟩ => ⟨S64x64x1, .f32⟩
  | .hbm, ⟨73, _⟩ => ⟨S64x64x64, .f32⟩
  | .hbm, ⟨74, _⟩ => ⟨S64x64x64, .f32⟩
  | _, _ => ⟨S64x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_call2_cst : Ref sig .tc := ⟨.hbm, 54, rfl⟩
abbrev main_call2_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  reducesTo_S64x64x128x128_S64x64x128_d3 : S64x64x128x128.ReducesTo [3] S64x64x128
  h_S_ : 0 < S_.numel
  bcast_S_S64x64x128 : S_.BroadcastsInDim S64x64x128 (![] : Fin 0 → Fin S64x64x128.rank)
  slices_S256x128_S128x128_0_0 : S256x128.Slices ![0, 0] S128x128
  slices_S256x128_S128x128_128_0 : S256x128.Slices ![128, 0] S128x128
  bcast_S64x64x128_S64x64x1x128_0_1_3 : S64x64x128.BroadcastsInDim S64x64x1x128 (![0, 1, 3] : Fin 3 → Fin S64x64x1x128.rank)
  bcast_S64x64x128_S64x1x64x128_0_2_3 : S64x64x128.BroadcastsInDim S64x1x64x128 (![0, 2, 3] : Fin 3 → Fin S64x1x64x128.rank)
  bcast_S64x64x1x128_S64x64x64x128_0_1_2_3 : S64x64x1x128.BroadcastsInDim S64x64x64x128 (![0, 1, 2, 3] : Fin 4 → Fin S64x64x64x128.rank)
  bcast_S64x1x64x128_S64x64x64x128_0_1_2_3 : S64x1x64x128.BroadcastsInDim S64x64x64x128 (![0, 1, 2, 3] : Fin 4 → Fin S64x64x64x128.rank)
  bcast_S128_S1x1x1x128_3 : S128.BroadcastsInDim S1x1x1x128 (![3] : Fin 1 → Fin S1x1x1x128.rank)
  bcast_S1x1x1x128_S64x64x64x128_0_1_2_3 : S1x1x1x128.BroadcastsInDim S64x64x64x128 (![0, 1, 2, 3] : Fin 4 → Fin S64x64x64x128.rank)
  bcast_S_S64x64x64x128 : S_.BroadcastsInDim S64x64x64x128 (![] : Fin 0 → Fin S64x64x64x128.rank)
  bcast_S64_S1x1x1x64_3 : S64.BroadcastsInDim S1x1x1x64 (![3] : Fin 1 → Fin S1x1x1x64.rank)
  bcast_S1x1x1x64_S64x64x64x64_0_1_2_3 : S1x1x1x64.BroadcastsInDim S64x64x64x64 (![0, 1, 2, 3] : Fin 4 → Fin S64x64x64x64.rank)
  bcast_S_S64x64x64x64 : S_.BroadcastsInDim S64x64x64x64 (![] : Fin 0 → Fin S64x64x64x64.rank)
  bcast_S1_S1x1x1x1_3 : S1.BroadcastsInDim S1x1x1x1 (![3] : Fin 1 → Fin S1x1x1x1.rank)
  bcast_S1x1x1x1_S64x64x64x1_0_1_2_3 : S1x1x1x1.BroadcastsInDim S64x64x64x1 (![0, 1, 2, 3] : Fin 4 → Fin S64x64x64x1.rank)
  shapeCasts_S64x64x64x1_S64x64x64 : S64x64x64x1.ShapeCasts S64x64x64
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S_S64x64x64 : S_.BroadcastsInDim S64x64x64 (![] : Fin 0 → Fin S64x64x64.rank)
  bcast_S1x64x64_S64x64x64_0_1_2 : S1x64x64.BroadcastsInDim S64x64x64 (![0, 1, 2] : Fin 3 → Fin S64x64x64.rank)
  transposes_S64x64x64_S64x64x64_0_2_1 : S64x64x64.Transposes [0, 2, 1] S64x64x64
  bcast_S_S64x64 : S_.BroadcastsInDim S64x64 (![] : Fin 0 → Fin S64x64.rank)
  reducesTo_S64x64x64_S64x64_d2 : S64x64x64.ReducesTo [2] S64x64
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x64_0_1_2 : S64x64x1.BroadcastsInDim S64x64x64 (![0, 1, 2] : Fin 3 → Fin S64x64x64.rank)
  dot_S64x64x128_S128x128_S64x64x128_2_0_01_1_n_n_wf : DotDims.WF S64x64x128 S128x128 S64x64x128 [2] [0] [0, 1] [1] [] []
  dot_S64x64x64x128_S128x64_S64x64x64x64_3_0_012_1_n_n_wf : DotDims.WF S64x64x64x128 S128x64 S64x64x64x64 [3] [0] [0, 1, 2] [1] [] []
  dot_S64x64x64x64_S64x1_S64x64x64x1_3_0_012_1_n_n_wf : DotDims.WF S64x64x64x64 S64x1 S64x64x64x1 [3] [0] [0, 1, 2] [1] [] []

variable [Facts₀]

def dot_S64x64x128_S128x128_S64x64x128_2_0_01_1_n_n : DotDims S64x64x128 S128x128 S64x64x128 where
  lhsContracting := [2]
  rhsContracting := [0]
  lhsNonContracting := [0, 1]
  rhsNonContracting := [1]
  lhsBatch := []
  rhsBatch := []
  wf := dot_S64x64x128_S128x128_S64x64x128_2_0_01_1_n_n_wf
def dot_S64x64x64x128_S128x64_S64x64x64x64_3_0_012_1_n_n : DotDims S64x64x64x128 S128x64 S64x64x64x64 where
  lhsContracting := [3]
  rhsContracting := [0]
  lhsNonContracting := [0, 1, 2]
  rhsNonContracting := [1]
  lhsBatch := []
  rhsBatch := []
  wf := dot_S64x64x64x128_S128x64_S64x64x64x64_3_0_012_1_n_n_wf
def dot_S64x64x64x64_S64x1_S64x64x64x1_3_0_012_1_n_n : DotDims S64x64x64x64 S64x1 S64x64x64x1 where
  lhsContracting := [3]
  rhsContracting := [0]
  lhsNonContracting := [0, 1, 2]
  rhsNonContracting := [1]
  lhsBatch := []
  rhsBatch := []
  wf := dot_S64x64x64x64_S64x1_S64x64x64x1_3_0_012_1_n_n_wf

class Facts : Prop extends Facts₀ where

variable [Facts]
-- ==== Proof.Spec.lean ====
/-
  The function both programs compute, for ONE batch element, written over plain coordinates.

  A batch element is a family X n h t (node n, feature h, time t).  Its node features are the time means
  node n h = (∑ t, X n h t) / 128.  Two linear maps of the node features, pI n k = ∑ h, node n h · Wi h k and
  pJ n k = ∑ h, node n h · Wj h k (Wi, Wj the upper and lower half of the first weight matrix), give every ordered
  pair of nodes (i, j) the hidden vector hid i j k = max (pI i k + pJ j k + b1 k) 0; a second layer gives
  hid2 i j k = max ((∑ h, hid i j h · W2 h k) + b2 k) 0, and a last one the edge score
  feat i j = (∑ k, hid2 i j k · w3 k) + b3.  The score is averaged with a learned matrix A,
  mix i j = ½ · A i j + ½ · feat i j, symmetrised and clipped, sym i j = max ((mix i j + mix j i) · ½) 0, a self loop is
  added, loop i j = sym i j + [i = j], and every row is divided by its sum plus a small constant:
  out i j = loop i j / ((∑ j', loop i j') + ε).

  The float constants stay the extended reals their f32 patterns denote; only the zero pattern is written 0.
-/
import Idealize.ShloMosaic.PureOps.Ideal
import Idealize.ShloMosaic.Lib.ValueIdx

noncomputable section

open scoped BigOperators

namespace Cert.Spec

open Idealize.ShloMosaic Idealize.ShloMosaic.ValueIdx

/-- The length of the time axis, 128, as the extended real its f32 pattern denotes. -/
def c128 : EReal := Ideal.ofBits .f32 0x43000000#32
/-- One half, as its f32 pattern. -/
def half : EReal := Ideal.ofBits .f32 0x3F000000#32
/-- One, as its f32 pattern. -/
def one : EReal := Ideal.ofBits .f32 0x3F800000#32
/-- The small constant added to a row sum (the f32 nearest 1e-8), as its pattern. -/
def eps : EReal := Ideal.ofBits .f32 0x322BCC77#32

section head

variable (X : Fin 64 → Fin 128 → Fin 128 → EReal)
  (Wi Wj : Fin 128 → Fin 128 → EReal) (b1 : Fin 128 → EReal)
  (W2 : Fin 128 → Fin 64 → EReal) (b2 : Fin 64 → EReal)

/-- The time mean of feature h of node n. -/
def node (n : Fin 64) (h : Fin 128) : EReal := Ideal.div (∑ t : Fin 128, X n h t) c128

/-- The node features through the upper half of the first weight matrix. -/
def projI (n : Fin 64) (k : Fin 128) : EReal := ∑ h : Fin 128, node X n h * Wi h k

/-- The node features through the lower half of the first weight matrix. -/
def projJ (n : Fin 64) (k : Fin 128) : EReal := ∑ h : Fin 128, node X n h * Wj h k

/-- The first hidden layer of the ordered pair (i, j). -/
def hid (i j : Fin 64) (k : Fin 128) : EReal := max (projI X Wi i k + projJ X Wj j k + b1 k) 0

/-- The second hidden layer of the ordered pair (i, j). -/
def hid2 (i j : Fin 64) (k : Fin 64) : EReal :=
  max ((∑ h : Fin 128, hid X Wi Wj b1 i j h * W2 h k) + b2 k) 0

end head

section tail

variable (H2 : Fin 64 → Fin 64 → Fin 64 → EReal) (w3 : Fin 64 → EReal) (b3 : EReal)
  (A : Fin 64 → Fin 64 → EReal)

/-- The edge score of the pair (i, j). -/
def feat (i j : Fin 64) : EReal := (∑ k : Fin 64, H2 i j k * w3 k) + b3

/-- The score averaged with the learned matrix. -/
def mix (i j : Fin 64) : EReal := half * A i j + half * feat H2 w3 b3 i j

/-- Symmetrised and clipped at zero. -/
def sym (i j : Fin 64) : EReal := max ((mix H2 w3 b3 A i j + mix H2 w3 b3 A j i) * half) 0

/-- With the self loop. -/
def loop (i j : Fin 64) : EReal := sym H2 w3 b3 A i j + if i = j then one else 0

/-- Row i divided by its sum plus the small constant. -/
def tailOut (i j : Fin 64) : EReal :=
  Ideal.div (loop H2 w3 b3 A i j) ((∑ j' : Fin 64, loop H2 w3 b3 A i j') + eps)

end tail

/-- The whole function of one batch element and the parameters. -/
def out (X : Fin 64 → Fin 128 → Fin 128 → EReal) (Wi Wj : Fin 128 → Fin 128 → EReal) (b1 : Fin 128 → EReal)
    (W2 : Fin 128 → Fin 64 → EReal) (b2 : Fin 64 → EReal) (w3 : Fin 64 → EReal) (b3 : EReal)
    (A : Fin 64 → Fin 64 → EReal) (i j : Fin 64) : EReal :=
  tailOut (hid2 X Wi Wj b1 W2 b2) w3 b3 A i j

/-- Row h of the upper half of a 256-row matrix. -/
def lo (h : Fin 128) : Fin 256 := ⟨h.val, by have := h.isLt; omega⟩
/-- Row h of the lower half of a 256-row matrix. -/
def hi (h : Fin 128) : Fin 256 := ⟨128 + h.val, by have := h.isLt; omega⟩

/-- THE RESULT ARRAY as one function of the eight argument arrays: entry (b, i, j) is `out` of batch element b. -/
def G (x0 : (⟨4, ![64, 64, 128, 128]⟩ : Shape).Idx → EReal) (x1 : (⟨2, ![64, 64]⟩ : Shape).Idx → EReal)
    (x2 : (⟨2, ![256, 128]⟩ : Shape).Idx → EReal) (x3 : (⟨1, ![128]⟩ : Shape).Idx → EReal)
    (x4 : (⟨2, ![128, 64]⟩ : Shape).Idx → EReal) (x5 : (⟨1, ![64]⟩ : Shape).Idx → EReal)
    (x6 : (⟨2, ![64, 1]⟩ : Shape).Idx → EReal) (x7 : (⟨1, ![1]⟩ : Shape).Idx → EReal) :
    (⟨3, ![64, 64, 64]⟩ : Shape).Idx → EReal := fun y =>
  out (fun n h t => x0 (ix4 (y 0) n h t)) (fun h k => x2 (ix2 (lo h) k)) (fun h k => x2 (ix2 (hi h) k))
    (fun k => x3 (ix1 k)) (fun h k => x4 (ix2 h k)) (fun k => x5 (ix1 k)) (fun k => x6 (ix2 k (0 : Fin 1)))
    (x7 (ix1 (0 : Fin 1))) (fun i j => x1 (ix2 i j)) (y 1) (y 2)

end Cert.Spec

end
-- ==== Proof.LibRank4Layout.lean ====
/-
  Reshapes, the middle-axes transpose and the `broadcast_in_dim`s of an attention layer's host code, read at an index
  given by its coordinates, for any sizes.

  * Reshapes (a row-major re-indexing): the last axis split in two, `[a,b,n] → [a,b,c,d]` with n = c·d, and merged
    back; the first two axes merged, `[a,b,c] → [m,c]` with m = a·b, and split back.  Each is stated with the merged
    coordinate and the two split coordinates related by a hypothesis (j = r·d + t), so no division appears.
  * The transpose that swaps the two middle axes of a rank-4 array, `[a,b,c,d] → [a,c,b,d]` (permutation [0,2,1,3]).
  * `broadcast_in_dim`: a scalar to any shape; a vector `[n]` as `[1,1,n]` and that along both leading axes to
    `[a,b,n]`; a matrix `[a,b]` as `[a,b,1]` and that along the last axis to `[a,b,c]`; a rank-3 array `[a,c,d]` as
    `[a,1,c,d]` and that along axis 1 to `[a,b,c,d]`; a rank-3 array `[a,b,c]` as `[a,b,c,1]` and that along the
    last axis to `[a,b,c,d]`.
-/
import Idealize.ShloMosaic.Lib.ValueIdx
import Idealize.ShloMosaic.Lib.Pipeline.Value

namespace Cert.Lib.Rank4Layout

open Idealize.ShloMosaic Idealize.ShloMosaic.ValueIdx

variable {α : Type}

/-! ## Reshapes -/

/-- The last axis split: entry (p, q, r, t) of the result is entry (p, q, j) of the source, j = r·d + t. -/
theorem splitLast_apply {a b n c d : Nat} (v : (⟨3, ![a, b, n]⟩ : Shape).Idx → α)
    (h : (⟨3, ![a, b, n]⟩ : Shape).ShapeCasts ⟨4, ![a, b, c, d]⟩) (hn : n = c * d)
    (p : Fin a) (q : Fin b) (r : Fin c) (t : Fin d) (j : Fin n) (hj : j.val = r.val * d + t.val) :
    shapeCast (⟨4, ![a, b, c, d]⟩ : Shape) v h (ix4 p q r t) = v (ix3 p q j) := by
  refine shapeCast_apply v h (ix4 p q r t) (ix3 p q j) ?_
  rw [Shape.rowMajor_val_three, Shape.rowMajor_val_four]
  show (p.val * b + q.val) * n + j.val = ((p.val * b + q.val) * c + r.val) * d + t.val
  rw [hj, hn]; ring

/-- The last two axes merged: entry (p, q, j) of the result is entry (p, q, r, t) of the source, j = r·d + t. -/
theorem mergeLast_apply {a b n c d : Nat} (v : (⟨4, ![a, b, c, d]⟩ : Shape).Idx → α)
    (h : (⟨4, ![a, b, c, d]⟩ : Shape).ShapeCasts ⟨3, ![a, b, n]⟩) (hn : n = c * d)
    (p : Fin a) (q : Fin b) (j : Fin n) (r : Fin c) (t : Fin d) (hj : j.val = r.val * d + t.val) :
    shapeCast (⟨3, ![a, b, n]⟩ : Shape) v h (ix3 p q j) = v (ix4 p q r t) := by
  refine shapeCast_apply v h (ix3 p q j) (ix4 p q r t) ?_
  rw [Shape.rowMajor_val_three, Shape.rowMajor_val_four]
  show ((p.val * b + q.val) * c + r.val) * d + t.val = (p.val * b + q.val) * n + j.val
  rw [hj, hn]; ring

/-- The first two axes merged: entry (i, r) of the result is entry (p, q, r) of the source, i = p·b + q. -/
theorem mergeFirst_apply {a b c m : Nat} (v : (⟨3, ![a, b, c]⟩ : Shape).Idx → α)
    (h : (⟨3, ![a, b, c]⟩ : Shape).ShapeCasts ⟨2, ![m, c]⟩)
    (i : Fin m) (r : Fin c) (p : Fin a) (q : Fin b) (hi : i.val = p.val * b + q.val) :
    shapeCast (⟨2, ![m, c]⟩ : Shape) v h (ix2 i r) = v (ix3 p q r) := by
  refine shapeCast_apply v h (ix2 i r) (ix3 p q r) ?_
  rw [Shape.rowMajor_val_three, Shape.rowMajor_val_two]
  show (p.val * b + q.val) * c + r.val = i.val * c + r.val
  rw [hi]

/-- The first axis split: entry (p, q, r) of the result is entry (i, r) of the source, i = p·b + q. -/
theorem splitFirst_apply {a b c m : Nat} (v : (⟨2, ![m, c]⟩ : Shape).Idx → α)
    (h : (⟨2, ![m, c]⟩ : Shape).ShapeCasts ⟨3, ![a, b, c]⟩)
    (p : Fin a) (q : Fin b) (r : Fin c) (i : Fin m) (hi : i.val = p.val * b + q.val) :
    shapeCast (⟨3, ![a, b, c]⟩ : Shape) v h (ix3 p q r) = v (ix2 i r) := by
  refine shapeCast_apply v h (ix3 p q r) (ix2 i r) ?_
  rw [Shape.rowMajor_val_three, Shape.rowMajor_val_two]
  show i.val * c + r.val = (p.val * b + q.val) * c + r.val
  rw [hi]

/-! ## The middle-axes transpose -/

/-- Entry (p, r, q, t) of the transpose is entry (p, q, r, t) of the source. -/
theorem swapMiddle_apply {a b c d : Nat} (v : (⟨4, ![a, b, c, d]⟩ : Shape).Idx → α)
    (h : (⟨4, ![a, b, c, d]⟩ : Shape).Transposes [0, 2, 1, 3] ⟨4, ![a, c, b, d]⟩)
    (p : Fin a) (r : Fin c) (q : Fin b) (t : Fin d) :
    transpose (⟨4, ![a, c, b, d]⟩ : Shape) [0, 2, 1, 3] v h (ix4 p r q t) = v (ix4 p q r t) := by
  refine transpose_apply [0, 2, 1, 3] v h (ix4 p r q t) (ix4 p q r t) fun bx => ?_
  match bx with
  | ⟨0, _⟩ => rfl
  | ⟨1, _⟩ => rfl
  | ⟨2, _⟩ => rfl
  | ⟨3, _⟩ => rfl

/-! ## `broadcast_in_dim` -/

/-- A coordinate kept by a broadcast: itself, or 0 when the axis has extent one (then it is 0 anyway). -/
theorem keep {a : Nat} (p : Fin a) : p.val = if a = 1 then 0 else p.val := by
  by_cases ha : a = 1
  · rw [if_pos ha]; have := p.isLt; omega
  · rw [if_neg ha]

/-- A coordinate on a unit axis of the operand is 0. -/
theorem unit (z : Fin 1) (x : Nat) : z.val = if (1 : Nat) = 1 then 0 else x := by
  rw [if_pos rfl]; have := z.isLt; omega

/-- A scalar to any shape: every entry is the scalar. -/
theorem scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply (![] : Fin 0 → Fin t.rank) h v j ix0 (fun ax => ax.elim0)

/-- A vector as `[1,1,n]`: entry (z0, z1, q) is the vector's entry q. -/
theorem vecTo11n_apply {n : Nat} (v : (⟨1, ![n]⟩ : Shape).Idx → α)
    (h : (⟨1, ![n]⟩ : Shape).BroadcastsInDim ⟨3, ![1, 1, n]⟩ (![2] : Fin 1 → Fin 3)) (z0 z1 : Fin 1) (q : Fin n) :
    broadcastInDim (⟨3, ![1, 1, n]⟩ : Shape) (![2] : Fin 1 → Fin 3) h v (ix3 z0 z1 q) = v (ix1 q) := by
  refine broadcastInDim_apply (![2] : Fin 1 → Fin 3) h v (ix3 z0 z1 q) (ix1 q) fun ax => ?_
  match ax with
  | ⟨0, _⟩ => exact keep q

/-- `[1,1,n]` along both leading axes: entry (p, q, r) is the operand's entry (0, 0, r). -/
theorem lead11n_apply {a b n : Nat} (v : (⟨3, ![1, 1, n]⟩ : Shape).Idx → α)
    (h : (⟨3, ![1, 1, n]⟩ : Shape).BroadcastsInDim ⟨3, ![a, b, n]⟩ (![0, 1, 2] : Fin 3 → Fin 3)) (p : Fin a) (q : Fin b) (r : Fin n) :
    broadcastInDim (⟨3, ![a, b, n]⟩ : Shape) (![0, 1, 2] : Fin 3 → Fin 3) h v (ix3 p q r) = v (ix3 (0 : Fin 1) (0 : Fin 1) r) := by
  refine broadcastInDim_apply (![0, 1, 2] : Fin 3 → Fin 3) h v (ix3 p q r) (ix3 (0 : Fin 1) (0 : Fin 1) r) fun ax => ?_
  match ax with
  | ⟨0, _⟩ => exact unit 0 p.val
  | ⟨1, _⟩ => exact unit 0 q.val
  | ⟨2, _⟩ => exact keep r

/-- A matrix as `[a,b,1]`: entry (p, q, z) is the matrix's entry (p, q). -/
theorem matToAb1_apply {a b : Nat} (v : (⟨2, ![a, b]⟩ : Shape).Idx → α)
    (h : (⟨2, ![a, b]⟩ : Shape).BroadcastsInDim ⟨3, ![a, b, 1]⟩ (![0, 1] : Fin 2 → Fin 3)) (p : Fin a) (q : Fin b) (z : Fin 1) :
    broadcastInDim (⟨3, ![a, b, 1]⟩ : Shape) (![0, 1] : Fin 2 → Fin 3) h v (ix3 p q z) = v (ix2 p q) := by
  refine broadcastInDim_apply (![0, 1] : Fin 2 → Fin 3) h v (ix3 p q z) (ix2 p q) fun ax => ?_
  match ax with
  | ⟨0, _⟩ => exact keep p
  | ⟨1, _⟩ => exact keep q

/-- `[a,b,1]` along the last axis: entry (p, q, r) is the operand's entry (p, q, 0). -/
theorem lastAb1_apply {a b c : Nat} (v : (⟨3, ![a, b, 1]⟩ : Shape).Idx → α)
    (h : (⟨3, ![a, b, 1]⟩ : Shape).BroadcastsInDim ⟨3, ![a, b, c]⟩ (![0, 1, 2] : Fin 3 → Fin 3)) (p : Fin a) (q : Fin b) (r : Fin c) :
    broadcastInDim (⟨3, ![a, b, c]⟩ : Shape) (![0, 1, 2] : Fin 3 → Fin 3) h v (ix3 p q r) = v (ix3 p q (0 : Fin 1)) := by
  refine broadcastInDim_apply (![0, 1, 2] : Fin 3 → Fin 3) h v (ix3 p q r) (ix3 p q (0 : Fin 1)) fun ax => ?_
  match ax with
  | ⟨0, _⟩ => exact keep p
  | ⟨1, _⟩ => exact keep q
  | ⟨2, _⟩ => exact unit 0 r.val

/-- A rank-3 array as `[a,1,c,d]`: entry (p, z, r, t) is the array's entry (p, r, t). -/
theorem r3ToA1cd_apply {a c d : Nat} (v : (⟨3, ![a, c, d]⟩ : Shape).Idx → α)
    (h : (⟨3, ![a, c, d]⟩ : Shape).BroadcastsInDim ⟨4, ![a, 1, c, d]⟩ (![0, 2, 3] : Fin 3 → Fin 4))
    (p : Fin a) (z : Fin 1) (r : Fin c) (t : Fin d) :
    broadcastInDim (⟨4, ![a, 1, c, d]⟩ : Shape) (![0, 2, 3] : Fin 3 → Fin 4) h v (ix4 p z r t) = v (ix3 p r t) := by
  refine broadcastInDim_apply (![0, 2, 3] : Fin 3 → Fin 4) h v (ix4 p z r t) (ix3 p r t) fun ax => ?_
  match ax with
  | ⟨0, _⟩ => exact keep p
  | ⟨1, _⟩ => exact keep r
  | ⟨2, _⟩ => exact keep t

/-- `[a,1,c,d]` along axis 1: entry (p, q, r, t) is the operand's entry (p, 0, r, t). -/
theorem axis1A1cd_apply {a b c d : Nat} (v : (⟨4, ![a, 1, c, d]⟩ : Shape).Idx → α)
    (h : (⟨4, ![a, 1, c, d]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p (0 : Fin 1) r t) := by
  refine broadcastInDim_apply (![0, 1, 2, 3] : Fin 4 → Fin 4) h v (ix4 p q r t) (ix4 p (0 : Fin 1) r t) fun ax => ?_
  match ax with
  | ⟨0, _⟩ => exact keep p
  | ⟨1, _⟩ => exact unit 0 q.val
  | ⟨2, _⟩ => exact keep r
  | ⟨3, _⟩ => exact keep t

/-- A rank-3 array as `[a,b,c,1]`: entry (p, q, r, z) is the array's entry (p, q, r). -/
theorem r3ToAbc1_apply {a b c : Nat} (v : (⟨3, ![a, b, c]⟩ : Shape).Idx → α)
    (h : (⟨3, ![a, b, c]⟩ : Shape).BroadcastsInDim ⟨4, ![a, b, c, 1]⟩ (![0, 1, 2] : Fin 3 → Fin 4))
    (p : Fin a) (q : Fin b) (r : Fin c) (z : Fin 1) :
    broadcastInDim (⟨4, ![a, b, c, 1]⟩ : Shape) (![0, 1, 2] : Fin 3 → Fin 4) h v (ix4 p q r z) = v (ix3 p q r) := by
  refine broadcastInDim_apply (![0, 1, 2] : Fin 3 → Fin 4) h v (ix4 p q r z) (ix3 p q r) fun ax => ?_
  match ax with
  | ⟨0, _⟩ => exact keep p
  | ⟨1, _⟩ => exact keep q
  | ⟨2, _⟩ => exact keep r

/-- `[a,b,c,1]` along the last axis: entry (p, q, r, t) is the operand's entry (p, q, r, 0). -/
theorem lastAbc1_apply {a b c d : Nat} (v : (⟨4, ![a, b, c, 1]⟩ : Shape).Idx → α)
    (h : (⟨4, ![a, b, c, 1]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p q r (0 : Fin 1)) := by
  refine broadcastInDim_apply (![0, 1, 2, 3] : Fin 4 → Fin 4) h v (ix4 p q r t) (ix4 p q r (0 : Fin 1)) fun ax => ?_
  match ax with
  | ⟨0, _⟩ => exact keep p
  | ⟨1, _⟩ => exact keep q
  | ⟨2, _⟩ => exact keep r
  | ⟨3, _⟩ => exact unit 0 t.val

end Cert.Lib.Rank4Layout
-- ==== Proof.LibRank4Broadcast.lean ====
/-
  Rank-4 layout operations read at an index given by its four coordinates, for any sizes.

  * Broadcasts of a rank-4 array along one or several unit axes: [a,b,1,d] along axis 2, [a,1,c,d] along axis 1 and
    [1,1,1,d] along the three leading axes, each to [a,b,c,d]: the entry at (p, q, r, t) is the operand's entry with 0 on
    every unit axis.
  * The reshapes that add those unit axes: [a,b,d] viewed as [a,b,1,d], [a,c,d] viewed as [a,1,c,d], a vector [d] viewed as
    [1,1,1,d], and a vector [b] viewed as [1,b].
  * The reshapes between a matrix [m,d] and a rank-4 array [a,b,c,d] with m = a·b·c (a row-major re-indexing): stated with
    the merged row i and the three split coordinates related by a hypothesis i = (p·b + q)·c + r, so no division appears.
  * Over the extended reals, the sum of a rank-4 array along its last axis started from the zero word is at (p, q, r) the
    finite sum over t of the entries (p, q, r, t).
-/
import Idealize.ShloMosaic.Lib.ValueIdx
import Idealize.ShloMosaic.Lib.Pipeline.Value
import Idealize.ShloMosaic.PureOps.Ideal.Laws

noncomputable section

open scoped BigOperators

namespace Cert.Lib.Rank4Broadcast

open Idealize.ShloMosaic Idealize.ShloMosaic.ValueIdx

variable {α : Type}

/-- A coordinate a broadcast keeps: itself, or 0 when the axis has extent one (then it is 0 anyway). -/
theorem keep {a : Nat} (p : Fin a) : p.val = if a = 1 then 0 else p.val := by
  by_cases ha : a = 1
  · rw [if_pos ha]; have := p.isLt; omega
  · rw [if_neg ha]

/-! ## Broadcasts along unit axes -/

/-- [a,b,1,d] along axis 2: entry (p, q, r, t) is the operand's entry (p, q, 0, t). -/
theorem bcastAxis2_apply {a b c d : Nat} (v : (⟨4, ![a, b, 1, d]⟩ : Shape).Idx → α)
    (h : (⟨4, ![a, b, 1, d]⟩ : Shape).Broadcasts ⟨4, ![a, b, c, d]⟩) (p : Fin a) (q : Fin b) (r : Fin c) (t : Fin d) :
    broadcastTo (⟨4, ![a, b, c, d]⟩ : Shape) v h (ix4 p q r t) = v (ix4 p q (0 : Fin 1) t) :=
  broadcastTo_apply v h (ix4 p q r t) (ix4 p q (0 : Fin 1) t) (fun x => match x with
    | ⟨0, _⟩ => keep p
    | ⟨1, _⟩ => keep q
    | ⟨2, _⟩ => by show 0 = if (1 : Nat) = 1 then 0 else r.val; rw [if_pos rfl]
    | ⟨3, _⟩ => keep t)

/-- [a,1,c,d] along axis 1: entry (p, q, r, t) is the operand's entry (p, 0, r, t). -/
theorem bcastAxis1_apply {a b c d : Nat} (v : (⟨4, ![a, 1, c, d]⟩ : Shape).Idx → α)
    (h : (⟨4, ![a, 1, c, d]⟩ : Shape).Broadcasts ⟨4, ![a, b, c, d]⟩) (p : Fin a) (q : Fin b) (r : Fin c) (t : Fin d) :
    broadcastTo (⟨4, ![a, b, c, d]⟩ : Shape) v h (ix4 p q r t) = v (ix4 p (0 : Fin 1) r t) :=
  broadcastTo_apply v h (ix4 p q r t) (ix4 p (0 : Fin 1) r t) (fun x => match x with
    | ⟨0, _⟩ => keep p
    | ⟨1, _⟩ => by show 0 = if (1 : Nat) = 1 then 0 else q.val; rw [if_pos rfl]
    | ⟨2, _⟩ => keep r
    | ⟨3, _⟩ => keep t)

/-- [1,1,1,d] along the three leading axes: entry (p, q, r, t) is the operand's entry (0, 0, 0, t). -/
theorem bcastLead_apply {a b c d : Nat} (v : (⟨4, ![1, 1, 1, d]⟩ : Shape).Idx → α)
    (h : (⟨4, ![1, 1, 1, d]⟩ : Shape).Broadcasts ⟨4, ![a, b, c, d]⟩) (p : Fin a) (q : Fin b) (r : Fin c) (t : Fin d) :
    broadcastTo (⟨4, ![a, b, c, d]⟩ : Shape) v h (ix4 p q r t) = v (ix4 (0 : Fin 1) (0 : Fin 1) (0 : Fin 1) t) :=
  broadcastTo_apply v h (ix4 p q r t) (ix4 (0 : Fin 1) (0 : Fin 1) (0 : Fin 1) t) (fun x => match x with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show 0 = if (1 : Nat) = 1 then 0 else r.val; rw [if_pos rfl]
    | ⟨3, _⟩ => keep t)

/-! ## Reshapes that add unit axes -/

/-- [a,b,d] viewed as [a,b,1,d]: entry (p, q, z, t) of the view is entry (p, q, t). -/
theorem castAddAxis2_apply {a b d : Nat} (v : (⟨3, ![a, b, d]⟩ : Shape).Idx → α)
    (h : (⟨3, ![a, b, d]⟩ : Shape).ShapeCasts ⟨4, ![a, b, 1, d]⟩) (p : Fin a) (q : Fin b) (z : Fin 1) (t : Fin d) :
    shapeCast (⟨4, ![a, b, 1, d]⟩ : Shape) v h (ix4 p q z t) = v (ix3 p q t) := by
  refine shapeCast_apply v h (ix4 p q z t) (ix3 p q t) ?_
  rw [Shape.rowMajor_val_three, Shape.rowMajor_val_four]
  show (p.val * b + q.val) * d + t.val = ((p.val * b + q.val) * 1 + z.val) * d + t.val
  have hz : z.val = 0 := by have := z.isLt; omega
  rw [hz, Nat.mul_one, Nat.add_zero]

/-- [a,c,d] viewed as [a,1,c,d]: entry (p, z, r, t) of the view is entry (p, r, t). -/
theorem castAddAxis1_apply {a c d : Nat} (v : (⟨3, ![a, c, d]⟩ : Shape).Idx → α)
    (h : (⟨3, ![a, c, d]⟩ : Shape).ShapeCasts ⟨4, ![a, 1, c, d]⟩) (p : Fin a) (z : Fin 1) (r : Fin c) (t : Fin d) :
    shapeCast (⟨4, ![a, 1, c, d]⟩ : Shape) v h (ix4 p z r t) = v (ix3 p r t) := by
  refine shapeCast_apply v h (ix4 p z r t) (ix3 p r t) ?_
  rw [Shape.rowMajor_val_three, Shape.rowMajor_val_four]
  show (p.val * c + r.val) * d + t.val = ((p.val * 1 + z.val) * c + r.val) * d + t.val
  have hz : z.val = 0 := by have := z.isLt; omega
  rw [hz, Nat.mul_one, Nat.add_zero]

/-- A vector [d] viewed as [1,1,1,d]: entry (z0, z1, z2, t) of the view is entry t. -/
theorem castVecLead_apply {d : Nat} (v : (⟨1, ![d]⟩ : Shape).Idx → α)
    (h : (⟨1, ![d]⟩ : Shape).ShapeCasts ⟨4, ![1, 1, 1, d]⟩) (z0 z1 z2 : Fin 1) (t : Fin d) :
    shapeCast (⟨4, ![1, 1, 1, d]⟩ : Shape) v h (ix4 z0 z1 z2 t) = v (ix1 t) := by
  refine shapeCast_apply v h (ix4 z0 z1 z2 t) (ix1 t) ?_
  rw [Shape.rowMajor_val_one, Shape.rowMajor_val_four]
  show t.val = ((z0.val * 1 + z1.val) * 1 + z2.val) * d + t.val
  have h0 : z0.val = 0 := by have := z0.isLt; omega
  have h1 : z1.val = 0 := by have := z1.isLt; omega
  have h2 : z2.val = 0 := by have := z2.isLt; omega
  rw [h0, h1, h2]; simp

/-- A vector [b] viewed as [1,b]: entry (z, q) of the view is entry q. -/
theorem castVecRow_apply {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A row [1,b] broadcast over a rows: entry (p, q) is the operand's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun x => match x with
    | ⟨0, _⟩ => by show 0 = if (1 : Nat) = 1 then 0 else p.val; rw [if_pos rfl]
    | ⟨1, _⟩ => keep q)

/-! ## Reshapes between a matrix and a rank-4 array -/

/-- The first axis split in three: entry (p, q, r, t) of the result is entry (i, t) of the matrix, i = (p·b + q)·c + r. -/
theorem splitFirst3_apply {a b c d m : Nat} (v : (⟨2, ![m, d]⟩ : Shape).Idx → α)
    (h : (⟨2, ![m, d]⟩ : Shape).ShapeCasts ⟨4, ![a, b, c, d]⟩)
    (p : Fin a) (q : Fin b) (r : Fin c) (t : Fin d) (i : Fin m) (hi : i.val = (p.val * b + q.val) * c + r.val) :
    shapeCast (⟨4, ![a, b, c, d]⟩ : Shape) v h (ix4 p q r t) = v (ix2 i t) := by
  refine shapeCast_apply v h (ix4 p q r t) (ix2 i t) ?_
  rw [Shape.rowMajor_val_four, Shape.rowMajor_val_two]
  show i.val * d + t.val = ((p.val * b + q.val) * c + r.val) * d + t.val
  rw [hi]

/-- The first three axes merged: entry (i, t) of the result is entry (p, q, r, t) of the array, i = (p·b + q)·c + r. -/
theorem mergeFirst3_apply {a b c d m : Nat} (v : (⟨4, ![a, b, c, d]⟩ : Shape).Idx → α)
    (h : (⟨4, ![a, b, c, d]⟩ : Shape).ShapeCasts ⟨2, ![m, d]⟩)
    (i : Fin m) (t : Fin d) (p : Fin a) (q : Fin b) (r : Fin c) (hi : i.val = (p.val * b + q.val) * c + r.val) :
    shapeCast (⟨2, ![m, d]⟩ : Shape) v h (ix2 i t) = v (ix4 p q r t) := by
  refine shapeCast_apply v h (ix2 i t) (ix4 p q r t) ?_
  rw [Shape.rowMajor_val_four, Shape.rowMajor_val_two]
  show ((p.val * b + q.val) * c + r.val) * d + t.val = i.val * d + t.val
  rw [hi]

/-! ## The sum along the last axis -/

/-- Over the extended reals, the sum of a rank-4 array along its last axis started from the zero word: entry (p, q, r) is
    the finite sum over t of the entries (p, q, r, t). -/
theorem sumLast4_apply {a b c d : Nat} (v : FVec Ideal (⟨4, ![a, b, c, d]⟩ : Shape) .f32)
    (h : (⟨4, ![a, b, c, d]⟩ : Shape).Reduces [(3 : Fin 4)] ⟨3, ![a, b, c]⟩) (hφ : FKind.Formats .f32)
    (hacc : (0x00000000#32 : BitVec 32) = FKind.add.neutral .f32 hφ) (p : Fin a) (q : Fin b) (r : Fin c) :
    multiReduction (F := Ideal) .add [(3 : Fin 4)] (⟨3, ![a, b, c]⟩ : Shape) v 0x00000000#32 h hφ hacc (ix3 p q r)
      = ∑ t : Fin d, v (ix4 p q r t) := by
  refine (Ideal.multiReduction_add_single v 0x00000000#32 h hφ hacc (ix3 p q r)).trans ?_
  show ∑ t : Fin d, v (h.lift (ix3 p q r) t) = ∑ t : Fin d, v (ix4 p q r t)
  refine Finset.sum_congr rfl fun t _ => congrArg v (funext fun x => Fin.ext ?_)
  match x with
  | ⟨0, _⟩ => rfl
  | ⟨1, _⟩ => rfl
  | ⟨2, _⟩ => rfl
  | ⟨3, _⟩ => rfl

end Cert.Lib.Rank4Broadcast

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.KernelHead.lean ====
/-
  The first part of the kernel body, up to the second hidden layer, read at one index.

  From the loaded block X (two batch elements), the two halves Wi, Wj of the first weight matrix, the first bias b1, the
  second weight matrix W2 and the second bias b2, the body computes, in this order: the time sums of X and their
  quotient by 128 (the node features); the node features, with the batch and node axes merged into 128 rows, times Wi and
  times Wj; the two products viewed again per batch element and added, one along the axis of the second node and one
  along the axis of the first, with b1, and clipped at zero (the first hidden layer of every ordered pair of nodes); that
  array with its three leading axes merged into 8192 rows times W2, plus b2, clipped at zero, and viewed again as one
  vector per batch element and ordered pair.  Each stage is read at an index over an arbitrary operand, and the stages
  are then chained: the value at (b, i, j, k) is the specification's second hidden layer of batch element b at (i, j, k).
-/
import proofs.«130970_j16260746183317_2_alg».proof.Proof.Gen.KernelIdeal.Skeleton
import proofs.«130970_j16260746183317_2_alg».proof.Proof.Spec
import proofs.«130970_j16260746183317_2_alg».proof.Proof.LibRank4Layout
import proofs.«130970_j16260746183317_2_alg».proof.Proof.LibRank4Broadcast
import proofs.«130970_j16260746183317_2_alg».proof.Proof.LibPlainDot

noncomputable section

open scoped BigOperators

namespace Cert.KernelHead

open Idealize.ShloMosaic Idealize.ShloMosaic.ValueIdx Cert.KernelIdeal Cert.KernelIdeal.Gen
open Cert.Lib.Rank4Broadcast

/-- Row b·64 + n of the 128 rows obtained by merging the batch axis with the node axis. -/
def row2 (b : Fin 2) (n : Fin 64) : Fin 128 := ⟨b.val * 64 + n.val, by have := b.isLt; have := n.isLt; omega⟩

/-- Row (b·64 + i)·64 + j of the 8192 rows obtained by merging the batch axis with the two node axes. -/
def row3 (b : Fin 2) (i j : Fin 64) : Fin 8192 :=
  ⟨(b.val * 64 + i.val) * 64 + j.val, by have := b.isLt; have := i.isLt; have := j.isLt; omega⟩

/-! ## The stages -/

/-- The time sum divided by 128: the node features. -/
theorem node_apply (v0 : FVec Ideal S2x64x128x128 .f32) (hr : S2x64x128x128.Reduces [3] S2x64x128)
    (hφ : FKind.Formats .f32) (hacc : (0x00000000#32 : BitVec 32) = FKind.add.neutral .f32 hφ)
    (b : Fin 2) (n : Fin 64) (h : Fin 128) :
    divf (multiReduction (F := Ideal) .add [3] S2x64x128 v0 0x00000000#32 hr hφ hacc)
        (broadcast S2x64x128 (Scalar.ofBits (F := Ideal) .f32 0x43000000#32)) (ix3 b n h)
      = Cert.Spec.node (fun n h t => v0 (ix4 b n h t)) n h := by
  show Ideal.div (multiReduction (F := Ideal) .add [3] S2x64x128 v0 0x00000000#32 hr hφ hacc (ix3 b n h))
      (Ideal.ofBits .f32 0x43000000#32) = _
  rw [sumLast4_apply v0 hr hφ hacc b n h]
  rfl

/-- The node features, rows merged, times one half of the first weight matrix, rows split again: the sum over the
    features. -/
theorem proj_apply (v3 : FVec Ideal S2x64x128 .f32) (w : FVec Ideal S128x128 .bf16)
    (h1 : S2x64x128.ShapeCasts S128x128) (hb : FTy.bits .bf16 < FTy.bits .f32) (h2 : S128x128.ShapeCasts S128x128)
    (h3 : S128x128.ShapeCasts S2x64x128) (b : Fin 2) (n : Fin 64) (k : Fin 128) :
    shapeCast S2x64x128
        (matmul dot_S128x128_S128x128_S128x128_1_0_0_1_n_n none (truncf .bf16 (shapeCast S128x128 v3 h1) hb)
          (shapeCast S128x128 w h2) (constant S128x128 .f32 0x00000000#32)) h3 (ix3 b n k)
      = ∑ h : Fin 128, v3 (ix3 b n h) * w (ix2 h k) := by
  refine (Cert.Lib.Rank4Layout.splitFirst_apply _ h3 b n k (row2 b n) rfl).trans ?_
  refine (Cert.Bridge.matmul_zero_plain dot_S128x128_S128x128_S128x128_1_0_0_1_n_n rfl rfl rfl rfl rfl rfl none _ _
    (row2 b n) k).trans ?_
  refine Finset.sum_congr rfl fun h _ => ?_
  rw [shapeCast_self]
  show shapeCast S128x128 v3 h1 (ix2 (row2 b n) h) * w (ix2 h k) = _
  rw [Cert.Lib.Rank4Layout.mergeFirst_apply v3 h1 (row2 b n) h b n rfl]

/-- One product along the axis of the second node, the other along the axis of the first, plus the bias, clipped at
    zero. -/
theorem hid_apply (v12 v13 : FVec Ideal S2x64x128 .f32) (v14 : FVec Ideal S128 .f32)
    (h1 : S2x64x128.ShapeCasts S2x64x1x128) (h2 : S2x64x128.ShapeCasts S2x1x64x128)
    (h3 : S2x64x1x128.Broadcasts S2x64x64x128) (h4 : S2x1x64x128.Broadcasts S2x64x64x128)
    (h5 : S128.ShapeCasts S1x1x1x128) (h6 : S1x1x1x128.Broadcasts S2x64x64x128)
    (b : Fin 2) (i j : Fin 64) (h : Fin 128) :
    maximumf
        (addf (addf (broadcastTo S2x64x64x128 (shapeCast S2x64x1x128 v12 h1) h3)
                    (broadcastTo S2x64x64x128 (shapeCast S2x1x64x128 v13 h2) h4))
              (broadcastTo S2x64x64x128 (shapeCast S1x1x1x128 v14 h5) h6))
        (broadcast S2x64x64x128 (Scalar.ofBits (F := Ideal) .f32 0x00000000#32)) (ix4 b i j h)
      = max (v12 (ix3 b i h) + v13 (ix3 b j h) + v14 (ix1 h)) 0 := by
  show max (broadcastTo S2x64x64x128 (shapeCast S2x64x1x128 v12 h1) h3 (ix4 b i j h)
        + broadcastTo S2x64x64x128 (shapeCast S2x1x64x128 v13 h2) h4 (ix4 b i j h)
        + broadcastTo S2x64x64x128 (shapeCast S1x1x1x128 v14 h5) h6 (ix4 b i j h)) (Ideal.ofBits .f32 0x00000000#32) = _
  rw [bcastAxis2_apply _ h3 b i j h, castAddAxis2_apply v12 h1 b i 0 h, bcastAxis1_apply _ h4 b i j h,
    castAddAxis1_apply v13 h2 b 0 j h, bcastLead_apply _ h6 b i j h, castVecLead_apply v14 h5 0 0 0 h,
    Ideal.ofBits_zero_f32]

/-- The first hidden layer, rows merged, times the second weight matrix, plus the bias, clipped at zero, rows split
    again. -/
theorem hid2_apply (v24 : FVec Ideal S2x64x64x128 .f32) (v27 : FVec Ideal S128x64 .bf16) (v29 : FVec Ideal S64 .f32)
    (h1 : S2x64x64x128.ShapeCasts S8192x128) (hb : FTy.bits .bf16 < FTy.bits .f32) (h2 : S128x64.ShapeCasts S128x64)
    (h3 : S64.ShapeCasts S1x64) (h4 : S1x64.Broadcasts S8192x64) (h5 : S8192x64.ShapeCasts S2x64x64x64)
    (b : Fin 2) (i j k : Fin 64) :
    shapeCast S2x64x64x64
        (maximumf
          (addf (matmul dot_S8192x128_S128x64_S8192x64_1_0_0_1_n_n none
                  (truncf .bf16 (shapeCast S8192x128 v24 h1) hb) (shapeCast S128x64 v27 h2)
                  (constant S8192x64 .f32 0x00000000#32))
                (broadcastTo S8192x64 (shapeCast S1x64 v29 h3) h4))
          (broadcast S8192x64 (Scalar.ofBits (F := Ideal) .f32 0x00000000#32))) h5 (ix4 b i j k)
      = max ((∑ h : Fin 128, v24 (ix4 b i j h) * v27 (ix2 h k)) + v29 (ix1 k)) 0 := by
  refine (splitFirst3_apply _ h5 b i j k (row3 b i j) rfl).trans ?_
  show max (FloatOps.matmul dot_S8192x128_S128x64_S8192x64_1_0_0_1_n_n none
        (truncf .bf16 (shapeCast S8192x128 v24 h1) hb) (shapeCast S128x64 v27 h2)
        (constant S8192x64 .f32 0x00000000#32) (ix2 (row3 b i j) k)
      + broadcastTo S8192x64 (shapeCast S1x64 v29 h3) h4 (ix2 (row3 b i j) k)) (Ideal.ofBits .f32 0x00000000#32) = _
  rw [Cert.Bridge.matmul_zero_plain dot_S8192x128_S128x64_S8192x64_1_0_0_1_n_n rfl rfl rfl rfl rfl rfl none _ _
    (row3 b i j) k, bcastRow_apply _ h4 (row3 b i j) k, castVecRow_apply v29 h3 0 k, Ideal.ofBits_zero_f32]
  refine congrArg (fun s => max (s + v29 (ix1 k)) 0) (Finset.sum_congr rfl fun h _ => ?_)
  rw [shapeCast_self]
  show shapeCast S8192x128 v24 h1 (ix2 (row3 b i j) h) * v27 (ix2 h k) = _
  rw [mergeFirst3_apply v24 h1 (row3 b i j) h b i j rfl]

/-! ## The chain -/

/-- The value the first part of the body hands on, at (b, i, j, k): the second hidden layer of batch element b at the
    ordered pair (i, j), component k. -/
theorem pay2_apply
    (v0 : FVec Ideal Cert.KernelIdeal.S2x64x128x128 .f32) (v6 v8 : FVec Ideal Cert.KernelIdeal.S128x128 .bf16)
    (v14 : FVec Ideal Cert.KernelIdeal.S128 .f32) (v27 : FVec Ideal Cert.KernelIdeal.S128x64 .bf16)
    (v29 : FVec Ideal Cert.KernelIdeal.S64 .f32) (bb : Fin 2) (i j k : Fin 64) :
    Cert.KernelIdeal.Gen.k0_pay2 (F := Ideal) v0 v6 v8 v14 v27 v29 (ix4 bb i j k)
      = Cert.Spec.hid2 (fun n h t => v0 (ix4 bb n h t)) (fun h k => v6 (ix2 h k)) (fun h k => v8 (ix2 h k))
          (fun k => v14 (ix1 k)) (fun h k => v27 (ix2 h k)) (fun k => v29 (ix1 k)) i j k := by
  unfold Cert.KernelIdeal.Gen.k0_pay2
  refine (hid2_apply _ v27 v29 _ _ _ _ _ _ bb i j k).trans ?_
  unfold Cert.Spec.hid2
  refine congrArg (fun s => max (s + v29 (ix1 k)) 0) (Finset.sum_congr rfl fun h _ => ?_)
  refine congrArg (· * v27 (ix2 h k)) ?_
  refine (hid_apply _ _ v14 _ _ _ _ _ _ bb i j h).trans ?_
  unfold Cert.Spec.hid Cert.Spec.projI Cert.Spec.projJ
  rw [proj_apply _ v6 _ _ _ _ bb i h, proj_apply _ v8 _ _ _ _ bb j h]
  refine congrArg (fun s => max (s + v14 (ix1 h)) 0) ?_
  refine congrArg₂ (· + ·) (Finset.sum_congr rfl fun h' _ => ?_) (Finset.sum_congr rfl fun h' _ => ?_)
  · exact congrArg (· * v6 (ix2 h' h)) (node_apply v0 _ _ _ bb i h')
  · exact congrArg (· * v8 (ix2 h' h)) (node_apply v0 _ _ _ bb j h')

end Cert.KernelHead

end
-- ==== Proof.LibRank3Layout.lean ====
/-
  Rank-3 layout operations read at an index given by its three coordinates, for any sizes.

  A matrix [a, b] viewed as [a, b, 1] (a trailing unit axis added) reads, at (p, q, 0), the matrix at (p, q); a matrix
  [b, c] viewed as [1, b, c] (a leading unit axis added) reads, at (0, q, r), the matrix at (q, r).  An array [a, b, 1]
  broadcast along its last axis to [a, b, c] reads, at (p, q, r), the array at (p, q, 0); an array [1, b, c] broadcast
  along its first axis to [a, b, c] reads, at (p, q, r), the array at (0, q, r).  And over the extended reals the sum of an
  [a, b, c] array along its last axis, started from the zero word, is at (p, q) the finite sum over r of the entries
  (p, q, r).  Each is one instance of the library's read-at-an-index lemma for the operation, with the coordinate
  arithmetic discharged once for all sizes.
-/
import Idealize.ShloMosaic.Lib.ValueIdx
import Idealize.ShloMosaic.Lib.Pipeline.Value
import Idealize.ShloMosaic.PureOps.Ideal.Laws

noncomputable section

open scoped BigOperators

namespace Idealize.ShloMosaic.Rank3

open Idealize.ShloMosaic Idealize.ShloMosaic.ValueIdx

variable {α : Type}

/-- A trailing unit axis added to a matrix: entry (p, q, 0) of the view is entry (p, q). -/
theorem castAddLast_apply {a b : Nat} (v : (⟨2, ![a, b]⟩ : Shape).Idx → α)
    (h : (⟨2, ![a, b]⟩ : Shape).ShapeCasts ⟨3, ![a, b, 1]⟩) (p : Fin a) (q : Fin b) (z : Fin 1) :
    shapeCast (⟨3, ![a, b, 1]⟩ : Shape) v h (ix3 p q z) = v (ix2 p q) := by
  refine shapeCast_apply v h (ix3 p q z) (ix2 p q) ?_
  rw [Shape.rowMajor_val_two, Shape.rowMajor_val_three]
  show p.val * b + q.val = (p.val * b + q.val) * 1 + z.val
  have := z.isLt
  omega

/-- A leading unit axis added to a matrix: entry (0, q, r) of the view is entry (q, r). -/
theorem castAddFirst_apply {b c : Nat} (v : (⟨2, ![b, c]⟩ : Shape).Idx → α)
    (h : (⟨2, ![b, c]⟩ : Shape).ShapeCasts ⟨3, ![1, b, c]⟩) (z : Fin 1) (q : Fin b) (r : Fin c) :
    shapeCast (⟨3, ![1, b, c]⟩ : Shape) v h (ix3 z q r) = v (ix2 q r) := by
  refine shapeCast_apply v h (ix3 z q r) (ix2 q r) ?_
  rw [Shape.rowMajor_val_two, Shape.rowMajor_val_three]
  show q.val * c + r.val = (z.val * b + q.val) * c + r.val
  have hz : z.val = 0 := by have := z.isLt; omega
  rw [hz, Nat.zero_mul, Nat.zero_add]

/-- A broadcast along the last axis: entry (p, q, r) is the operand's entry (p, q, 0). -/
theorem bcastLast_apply {a b c : Nat} (v : (⟨3, ![a, b, 1]⟩ : Shape).Idx → α)
    (h : (⟨3, ![a, b, 1]⟩ : Shape).Broadcasts ⟨3, ![a, b, c]⟩) (p : Fin a) (q : Fin b) (r : Fin c) :
    broadcastTo (⟨3, ![a, b, c]⟩ : Shape) v h (ix3 p q r) = v (ix3 p q (0 : Fin 1)) :=
  broadcastTo_apply v h (ix3 p q r) (ix3 p q (0 : Fin 1)) (fun d => match d with
    | ⟨0, _⟩ => by
        show p.val = if a = 1 then 0 else p.val
        by_cases ha : a = 1
        · rw [if_pos ha]; have := p.isLt; omega
        · rw [if_neg ha]
    | ⟨1, _⟩ => by
        show q.val = if b = 1 then 0 else q.val
        by_cases hb : b = 1
        · rw [if_pos hb]; have := q.isLt; omega
        · rw [if_neg hb]
    | ⟨2, _⟩ => by show 0 = if (1 : Nat) = 1 then 0 else r.val; rw [if_pos rfl])

/-- A broadcast along the first axis: entry (p, q, r) is the operand's entry (0, q, r). -/
theorem bcastFirst_apply {a b c : Nat} (v : (⟨3, ![1, b, c]⟩ : Shape).Idx → α)
    (h : (⟨3, ![1, b, c]⟩ : Shape).Broadcasts ⟨3, ![a, b, c]⟩) (p : Fin a) (q : Fin b) (r : Fin c) :
    broadcastTo (⟨3, ![a, b, c]⟩ : Shape) v h (ix3 p q r) = v (ix3 (0 : Fin 1) q r) :=
  broadcastTo_apply v h (ix3 p q r) (ix3 (0 : Fin 1) q r) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb]
    | ⟨2, _⟩ => by
        show r.val = if c = 1 then 0 else r.val
        by_cases hc : c = 1
        · rw [if_pos hc]; have := r.isLt; omega
        · rw [if_neg hc])

/-- Over the extended reals, the sum along the last axis started from the zero word: entry (p, q) is the finite sum
    over r of the entries (p, q, r). -/
theorem sumLast_apply {a b c : Nat} (v : FVec Ideal (⟨3, ![a, b, c]⟩ : Shape) .f32)
    (h : (⟨3, ![a, b, c]⟩ : Shape).Reduces [(2 : Fin 3)] ⟨2, ![a, b]⟩) (hφ : FKind.Formats .f32)
    (hacc : (0x00000000#32 : BitVec 32) = FKind.add.neutral .f32 hφ) (p : Fin a) (q : Fin b) :
    multiReduction (F := Ideal) .add [(2 : Fin 3)] (⟨2, ![a, b]⟩ : Shape) v 0x00000000#32 h hφ hacc (ix2 p q)
      = ∑ r : Fin c, v (ix3 p q r) := by
  refine (Ideal.multiReduction_add_single v 0x00000000#32 h hφ hacc (ix2 p q)).trans ?_
  show ∑ r : Fin c, v (h.lift (ix2 p q) r) = ∑ r : Fin c, v (ix3 p q r)
  refine Finset.sum_congr rfl fun r _ => congrArg v (funext fun d => Fin.ext ?_)
  match d with
  | ⟨0, _⟩ => rfl
  | ⟨1, _⟩ => rfl
  | ⟨2, _⟩ => rfl

end Idealize.ShloMosaic.Rank3

end
-- ==== Proof.LibKeepdimsColumn.lean ====
/-
  The "keepdims" column forms of a row statistic, read at an index, for any sizes: a vector `[a]` cast to a column `[a,1]`
  and back, a column `[a,1]` broadcast along the rows to `[a,b]`, and the composite a kernel writes after a row reduction —
  the statistic cast to a column and broadcast back over its row: entry (p, q) is the statistic of row p.
-/
import Idealize.ShloMosaic.Lib.ValueIdx
import Idealize.ShloMosaic.Lib.Pipeline.Value

namespace Cert.Lib.KeepdimsColumn

open Idealize.ShloMosaic Idealize.ShloMosaic.ValueIdx

variable {α : Type}

/-- A vector as a column: entry (p, 0) is the vector's entry p. -/
theorem vecToCol_apply {a : Nat} (v : (⟨1, ![a]⟩ : Shape).Idx → α) (h : (⟨1, ![a]⟩ : Shape).ShapeCasts ⟨2, ![a, 1]⟩)
    (p : Fin a) (z : Fin 1) : shapeCast (⟨2, ![a, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt; omega

/-- A column as a vector: entry p is the column's entry (p, 0). -/
theorem colToVec_apply {a : Nat} (v : (⟨2, ![a, 1]⟩ : Shape).Idx → α) (h : (⟨2, ![a, 1]⟩ : Shape).ShapeCasts ⟨1, ![a]⟩)
    (p : Fin a) : shapeCast (⟨1, ![a]⟩ : Shape) v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A column broadcast along the rows: entry (p, q) is the column's entry (p, 0). -/
theorem colToMat_apply {a b : Nat} (v : (⟨2, ![a, 1]⟩ : Shape).Idx → α) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => show 0 = if (1 : Nat) = 1 then 0 else q.val; rw [if_pos rfl]

/-- A row statistic put back on its row: entry (p, q) is the statistic of row p. -/
theorem statToMat_apply {a b : Nat} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo (⟨2, ![a, b]⟩ : Shape) (shapeCast (⟨2, ![a, 1]⟩ : Shape) v hc) hb (ix2 p q) = v (ix1 p) :=
  (colToMat_apply _ hb p q).trans (vecToCol_apply v hc p 0)

end Cert.Lib.KeepdimsColumn
-- ==== Proof.LibRank4Lane.lean ====
/-
  Rank-4 arrays whose LAST axis carries a vector, read at an index given by its four coordinates, for any sizes.

  * A vector [n] viewed as [1, 1, 1, n] (three leading unit axes added) reads, at (0, 0, 0, t), the vector at t.
  * An array [1, 1, 1, n] broadcast along its three leading axes to [a, b, c, n] reads, at (p, q, r, t), the array at
    (0, 0, 0, t).
  * Over the extended reals the sum of an [a, b, c, d] array along its last axis, started from the zero word, is at
    (p, q, r) the finite sum over t of the entries (p, q, r, t).

  Each is one instance of the library's read-at-an-index lemma for the operation, with the coordinate arithmetic
  discharged once for all sizes.
-/
import Idealize.ShloMosaic.Lib.ValueIdx
import Idealize.ShloMosaic.Lib.Pipeline.Value
import Idealize.ShloMosaic.PureOps.Ideal.Laws

noncomputable section

open scoped BigOperators

namespace Cert.Lib.Rank4Lane

open Idealize.ShloMosaic Idealize.ShloMosaic.ValueIdx

variable {α : Type}

/-- Three leading unit axes added to a vector: entry (z0, z1, z2, t) of the view is entry t. -/
theorem vecTo111n_apply {n : Nat} (v : (⟨1, ![n]⟩ : Shape).Idx → α)
    (h : (⟨1, ![n]⟩ : Shape).ShapeCasts ⟨4, ![1, 1, 1, n]⟩) (z0 z1 z2 : Fin 1) (t : Fin n) :
    shapeCast (⟨4, ![1, 1, 1, n]⟩ : Shape) v h (ix4 z0 z1 z2 t) = v (ix1 t) := by
  refine shapeCast_apply v h (ix4 z0 z1 z2 t) (ix1 t) ?_
  rw [Shape.rowMajor_val_one, Shape.rowMajor_val_four]
  show t.val = ((z0.val * 1 + z1.val) * 1 + z2.val) * n + t.val
  have h0 : z0.val = 0 := by have := z0.isLt; omega
  have h1 : z1.val = 0 := by have := z1.isLt; omega
  have h2 : z2.val = 0 := by have := z2.isLt; omega
  rw [h0, h1, h2]; simp

/-- A broadcast along the three leading axes: entry (p, q, r, t) is the operand's entry (0, 0, 0, t). -/
theorem bcastLead111n_apply {a b c n : Nat} (v : (⟨4, ![1, 1, 1, n]⟩ : Shape).Idx → α)
    (h : (⟨4, ![1, 1, 1, n]⟩ : Shape).Broadcasts ⟨4, ![a, b, c, n]⟩) (p : Fin a) (q : Fin b) (r : Fin c) (t : Fin n) :
    broadcastTo (⟨4, ![a, b, c, n]⟩ : Shape) v h (ix4 p q r t) = v (ix4 (0 : Fin 1) (0 : Fin 1) (0 : Fin 1) t) :=
  broadcastTo_apply v h (ix4 p q r t) (ix4 (0 : Fin 1) (0 : Fin 1) (0 : Fin 1) t) (fun x => match x with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show 0 = if (1 : Nat) = 1 then 0 else r.val; rw [if_pos rfl]
    | ⟨3, _⟩ => by
        show t.val = if n = 1 then 0 else t.val
        by_cases hn : n = 1
        · rw [if_pos hn]; have := t.isLt; omega
        · rw [if_neg hn])

/-- Over the extended reals, the sum along the last axis started from the zero word: entry (p, q, r) is the finite sum
    over t of the entries (p, q, r, t). -/
theorem sumLast4_apply {a b c d : Nat} (v : FVec Ideal (⟨4, ![a, b, c, d]⟩ : Shape) .f32)
    (h : (⟨4, ![a, b, c, d]⟩ : Shape).Reduces [(3 : Fin 4)] ⟨3, ![a, b, c]⟩) (hφ : FKind.Formats .f32)
    (hacc : (0x00000000#32 : BitVec 32) = FKind.add.neutral .f32 hφ) (p : Fin a) (q : Fin b) (r : Fin c) :
    multiReduction (F := Ideal) .add [(3 : Fin 4)] (⟨3, ![a, b, c]⟩ : Shape) v 0x00000000#32 h hφ hacc (ix3 p q r)
      = ∑ t : Fin d, v (ix4 p q r t) := by
  refine (Ideal.multiReduction_add_single v 0x00000000#32 h hφ hacc (ix3 p q r)).trans ?_
  show ∑ t : Fin d, v (h.lift (ix3 p q r) t) = ∑ t : Fin d, v (ix4 p q r t)
  refine Finset.sum_congr rfl fun t _ => congrArg v (funext fun x => Fin.ext ?_)
  match x with
  | ⟨0, _⟩ => rfl
  | ⟨1, _⟩ => rfl
  | ⟨2, _⟩ => rfl
  | ⟨3, _⟩ => rfl

end Cert.Lib.Rank4Lane

end
-- ==== Proof.LibDiagSwap.lean ====
/-
  Two facts about square blocks, for any sizes.

  * The transpose that swaps the two LAST axes of a rank-3 array, [a, b, c] → [a, c, b] (permutation [0, 2, 1]): entry
    (p, r, q) of the result is entry (p, q, r) of the source.
  * The identity pattern a kernel builds from two iotas: the row number and the column number of an [m, n] block as
    32-bit words, compared for equality, choosing between two constants.  While the extents fit in 32 bits the words are
    equal exactly when the numbers are, so entry (i, j) is the first constant when i and j are the same number and the
    second otherwise.
-/
import Idealize.ShloMosaic.Lib.ValueIdx
import Idealize.ShloMosaic.Lib.Pipeline.Value

namespace Cert.Lib.DiagSwap

open Idealize.ShloMosaic Idealize.ShloMosaic.ValueIdx

variable {α : Type}

/-- Entry (p, r, q) of the transpose is entry (p, q, r) of the source. -/
theorem swapLast3_apply {a b c : Nat} (v : (⟨3, ![a, b, c]⟩ : Shape).Idx → α)
    (h : (⟨3, ![a, b, c]⟩ : Shape).Transposes [0, 2, 1] ⟨3, ![a, c, b]⟩) (p : Fin a) (r : Fin c) (q : Fin b) :
    transpose (⟨3, ![a, c, b]⟩ : Shape) [0, 2, 1] v h (ix3 p r q) = v (ix3 p q r) := by
  refine transpose_apply [0, 2, 1] v h (ix3 p r q) (ix3 p q r) fun bx => ?_
  match bx with
  | ⟨0, _⟩ => rfl
  | ⟨1, _⟩ => rfl
  | ⟨2, _⟩ => rfl

/-- The w-bit words of two naturals below 2^w are equal exactly when the naturals are. -/
theorem ofNat_eq_iff {w x y : Nat} (hx : x < 2 ^ w) (hy : y < 2 ^ w) : BitVec.ofNat w x = BitVec.ofNat w y ↔ x = y := by
  constructor
  · intro h
    have h' := congrArg BitVec.toNat h
    rw [BitVec.toNat_ofNat, BitVec.toNat_ofNat, Nat.mod_eq_of_lt hx, Nat.mod_eq_of_lt hy] at h'
    exact h'
  · intro h; rw [h]

/-- The equality bit of the row word and the column word, choosing between two values: the first on the diagonal. -/
theorem select_iota_eq {κ : Kind} {m n : Nat} (hm : m ≤ 2 ^ 32) (hn : n ≤ 2 ^ 32)
    (h0 : (⟨2, ![m, n]⟩ : Shape).Iotas κ 32 [(0 : Fin 2)]) (h1 : (⟨2, ![m, n]⟩ : Shape).Iotas κ 32 [(1 : Fin 2)])
    (x y : (⟨2, ![m, n]⟩ : Shape).Idx → α) (i : Fin m) (j : Fin n) :
    select (cmpi .eq (iota κ (⟨2, ![m, n]⟩ : Shape) 32 [(0 : Fin 2)] h0) (iota κ (⟨2, ![m, n]⟩ : Shape) 32 [(1 : Fin 2)] h1)) x y (ix2 i j)
      = if i.val = j.val then x (ix2 i j) else y (ix2 i j) := by
  show Scalar.select (IntOp.cmpi .eq (iota κ (⟨2, ![m, n]⟩ : Shape) 32 [(0 : Fin 2)] h0 (ix2 i j))
      (iota κ (⟨2, ![m, n]⟩ : Shape) 32 [(1 : Fin 2)] h1 (ix2 i j))) (x (ix2 i j)) (y (ix2 i j)) = _
  rw [iota_single_apply κ _ 32 (0 : Fin 2) h0 (ix2 i j), iota_single_apply κ _ 32 (1 : Fin 2) h1 (ix2 i j)]
  show Scalar.select (IntOp.cmpi .eq (BitVec.ofNat 32 i.val) (BitVec.ofNat 32 j.val)) (x (ix2 i j)) (y (ix2 i j)) = _
  have hi : i.val < 2 ^ 32 := lt_of_lt_of_le i.isLt hm
  have hj : j.val < 2 ^ 32 := lt_of_lt_of_le j.isLt hn
  unfold Scalar.select IntOp.cmpi
  by_cases hij : i.val = j.val
  · rw [if_pos hij, hij]; simp
  · rw [if_neg hij]
    have hne : ¬ BitVec.ofNat 32 i.val = BitVec.ofNat 32 j.val := fun e => hij ((ofNat_eq_iff hi hj).1 e)
    have : (BitVec.ofNat 32 i.val == BitVec.ofNat 32 j.val) = false := by simpa using hne
    simp [this]

end Cert.Lib.DiagSwap
-- ==== Proof.KernelTail.lean ====
/-
  The last part of the kernel body, from the second hidden layer to the stored block, read at an index.

  For a batch element bb the stored value at (bb, i, j) is computed from the second hidden layer H2 (bb, i, j, k), the last
  weight column w3, the bias b3 and the learned matrix A in seven steps: the weight column spread over all pairs; the
  edge score, a sum along the last axis plus the bias; the average with the learned matrix; the symmetrised, clipped
  score, which reads the average at (i, j) and at (j, i); the identity pattern made of a row number and a column
  number compared as words; the self loop; and the quotient of each entry by its row sum plus a small constant, which
  reads the whole row.  Each step is a function of the values before it, read at an index over VARIABLES; the value
  the body stores is their composition by definitional unfolding, and the composition of the seven readings is the
  specification's `tailOut`.
-/
import proofs.«130970_j16260746183317_2_alg».proof.Proof.Gen.KernelIdeal.Skeleton
import proofs.«130970_j16260746183317_2_alg».proof.Proof.Spec
import proofs.«130970_j16260746183317_2_alg».proof.Proof.LibRank3Layout
import proofs.«130970_j16260746183317_2_alg».proof.Proof.LibKeepdimsColumn
import proofs.«130970_j16260746183317_2_alg».proof.Proof.LibRank4Lane
import proofs.«130970_j16260746183317_2_alg».proof.Proof.LibDiagSwap

noncomputable section

open scoped BigOperators

namespace Cert.KernelTail

open Idealize.ShloMosaic Idealize.ShloMosaic.ValueIdx Cert.KernelIdeal Cert.Lib

/-! ## The seven steps as functions of the values before them -/

/-- The last weight column, a [64, 1] array, spread over every (batch element, i, j): entry (bb, i, j, k) is its entry k. -/
def w3V (v37 : FVec Ideal S64x1 .bf16) : FVec Ideal S2x64x64x64 .f32 :=
  broadcastTo S2x64x64x64
    (shapeCast S1x1x1x64
      (extf .f32 (shapeCast S64 (shapeCast S64x1 v37 Gen.shapeCasts_S64x1_S64x1) Gen.shapeCasts_S64x1_S64) Gen.bitsLt_bf16_f32)
      Gen.shapeCasts_S64_S1x1x1x64)
    Gen.broadcasts_S1x1x1x64_S2x64x64x64

/-- The edge score: the sum along the last axis of the products with the weight column, plus the bias. -/
def featV (v36 : FVec Ideal S2x64x64x64 .f32) (v37 : FVec Ideal S64x1 .bf16) (v41 : FVec Ideal S1 .f32) : FVec Ideal S2x64x64 .f32 :=
  addf
    (multiReduction .add [3] S2x64x64 (mulf v36 (w3V v37)) 0x00000000#32 Gen.reduces_S2x64x64x64_S2x64x64 (.inl rfl) rfl)
    (broadcast S2x64x64 (extractAt ![0] v41 Gen.inpos_S1_p0))

/-- The average of the learned matrix and the edge score. -/
def mixV (v48 : FVec Ideal S2x64x64 .f32) (v49 : FVec Ideal S64x64 .f32) : FVec Ideal S2x64x64 .f32 :=
  addf
    (broadcastTo S2x64x64
      (mulf (broadcast S1x64x64 (Scalar.ofBits .f32 0x3F000000#32 : Ideal .f32)) (shapeCast S1x64x64 v49 Gen.shapeCasts_S64x64_S1x64x64))
      Gen.broadcasts_S1x64x64_S2x64x64)
    (mulf (broadcast S2x64x64 (Scalar.ofBits .f32 0x3F000000#32 : Ideal .f32)) v48)

/-- Symmetrised and clipped at zero. -/
def symV (v56 : FVec Ideal S2x64x64 .f32) : FVec Ideal S2x64x64 .f32 :=
  maximumf
    (mulf (addf v56 (transpose S2x64x64 [0, 2, 1] v56 Gen.transposes_S2x64x64_p0_2_1_S2x64x64))
      (broadcast S2x64x64 (Scalar.ofBits .f32 0x3F000000#32 : Ideal .f32)))
    (broadcast S2x64x64 (Scalar.ofBits .f32 0x00000000#32 : Ideal .f32))

/-- The identity pattern: one where the row number and the column number are the same word, zero elsewhere. -/
def eyeV : FVec Ideal S64x64 .f32 :=
  select (cmpi .eq (iota .tc S64x64 32 [0] Gen.iota_S64x64_d0_w32) (iota .tc S64x64 32 [1] Gen.iota_S64x64_d1_w32))
    (broadcast S64x64 (Scalar.ofBits .f32 0x3F800000#32 : Ideal .f32))
    (broadcast S64x64 (Scalar.ofBits .f32 0x00000000#32 : Ideal .f32))

/-- With the self loop. -/
def loopV (v62 : FVec Ideal S2x64x64 .f32) : FVec Ideal S2x64x64 .f32 :=
  addf v62 (broadcastTo S2x64x64 (shapeCast S1x64x64 eyeV Gen.shapeCasts_S64x64_S1x64x64) Gen.broadcasts_S1x64x64_S2x64x64)

/-- Every entry divided by its row sum plus the small constant. -/
def outV (v71 : FVec Ideal S2x64x64 .f32) : FVec Ideal S2x64x64 .f32 :=
  divf v71
    (broadcastTo S2x64x64
      (addf
        (shapeCast S2x64x1 (multiReduction .add [2] S2x64 v71 0x00000000#32 Gen.reduces_S2x64x64_S2x64 (.inl rfl) rfl)
          Gen.shapeCasts_S2x64_S2x64x1)
        (broadcast S2x64x1 (Scalar.ofBits .f32 0x322BCC77#32 : Ideal .f32)))
      Gen.broadcasts_S2x64x1_S2x64x64)

/-- The stored value is the composition of the seven steps: the body's bindings substitute to it. -/
theorem pay1_eq (v36 : FVec Ideal S2x64x64x64 .f32) (v37 : FVec Ideal S64x1 .bf16) (v41 : FVec Ideal S1 .f32)
    (v49 : FVec Ideal S64x64 .f32) :
    Gen.k0_pay1 (F := Ideal) v36 v37 v41 v49 = outV (loopV (symV (mixV (featV v36 v37 v41) v49))) := rfl

/-! ## Each step read at an index -/

/-- The spread weight column at (bb, i, j, k) is the column's entry k. -/
theorem w3V_apply (v37 : FVec Ideal S64x1 .bf16) (bb : Fin 2) (i j k : Fin 64) :
    w3V v37 (ix4 bb i j k) = v37 (ix2 k (0 : Fin 1)) := by
  unfold w3V
  refine (Rank4Lane.bcastLead111n_apply _ _ bb i j k).trans ?_
  refine (Rank4Lane.vecTo111n_apply _ _ 0 0 0 k).trans ?_
  show shapeCast S64 (shapeCast S64x1 v37 Gen.shapeCasts_S64x1_S64x1) Gen.shapeCasts_S64x1_S64 (ix1 k) = _
  refine (KeepdimsColumn.colToVec_apply _ _ k).trans ?_
  rw [shapeCast_self]

/-- The edge score at (bb, i, j): the sum over k of H2 (bb, i, j, k) · w3 k, plus the bias. -/
theorem featV_apply (v36 : FVec Ideal S2x64x64x64 .f32) (v37 : FVec Ideal S64x1 .bf16) (v41 : FVec Ideal S1 .f32)
    (bb : Fin 2) (i j : Fin 64) :
    featV v36 v37 v41 (ix3 bb i j)
      = (∑ k : Fin 64, v36 (ix4 bb i j k) * v37 (ix2 k (0 : Fin 1))) + v41 (ix1 (0 : Fin 1)) := by
  unfold featV
  refine congrArg₂ (· + ·) ?_ ?_
  · refine (Rank4Lane.sumLast4_apply _ _ _ _ bb i j).trans ?_
    refine Finset.sum_congr rfl fun k _ => ?_
    rw [mulf_apply, w3V_apply]
  · show v41 _ = v41 _
    refine congrArg v41 (funext fun a => Fin.ext ?_)
    match a with
    | ⟨0, _⟩ => rfl

/-- The average at (bb, i, j). -/
theorem mixV_apply (v48 : FVec Ideal S2x64x64 .f32) (v49 : FVec Ideal S64x64 .f32) (bb : Fin 2) (i j : Fin 64) :
    mixV v48 v49 (ix3 bb i j) = Spec.half * v49 (ix2 i j) + Spec.half * v48 (ix3 bb i j) := by
  unfold mixV
  refine congrArg₂ (· + ·) ?_ rfl
  refine (Rank3.bcastFirst_apply _ _ bb i j).trans ?_
  show Spec.half * shapeCast S1x64x64 v49 Gen.shapeCasts_S64x64_S1x64x64 (ix3 (0 : Fin 1) i j) = _
  rw [Rank3.castAddFirst_apply]

/-- The symmetrised, clipped score at (bb, i, j) reads the average at (bb, i, j) and at (bb, j, i). -/
theorem symV_apply (v56 : FVec Ideal S2x64x64 .f32) (bb : Fin 2) (i j : Fin 64) :
    symV v56 (ix3 bb i j) = max ((v56 (ix3 bb i j) + v56 (ix3 bb j i)) * Spec.half) 0 := by
  unfold symV
  show max ((v56 (ix3 bb i j) + transpose S2x64x64 [0, 2, 1] v56 Gen.transposes_S2x64x64_p0_2_1_S2x64x64 (ix3 bb i j)) * Spec.half)
      (Ideal.ofBits .f32 0x00000000#32) = _
  rw [DiagSwap.swapLast3_apply, Ideal.ofBits_zero_f32]

/-- The identity pattern at (i, j): one on the diagonal, zero off it. -/
theorem eyeV_apply (i j : Fin 64) : eyeV (ix2 i j) = if i = j then Spec.one else 0 := by
  unfold eyeV
  refine (DiagSwap.select_iota_eq (by norm_num) (by norm_num) _ _ _ _ i j).trans ?_
  show (if i.val = j.val then Spec.one else Ideal.ofBits .f32 0x00000000#32) = _
  rw [Ideal.ofBits_zero_f32]
  by_cases h : i = j
  · rw [if_pos h, if_pos (congrArg Fin.val h)]
  · rw [if_neg h, if_neg (fun e => h (Fin.ext e))]

/-- The self loop at (bb, i, j). -/
theorem loopV_apply (v62 : FVec Ideal S2x64x64 .f32) (bb : Fin 2) (i j : Fin 64) :
    loopV v62 (ix3 bb i j) = v62 (ix3 bb i j) + if i = j then Spec.one else 0 := by
  unfold loopV
  refine congrArg₂ (· + ·) rfl ?_
  refine (Rank3.bcastFirst_apply _ _ bb i j).trans ?_
  rw [Rank3.castAddFirst_apply, eyeV_apply]

/-- The quotient at (bb, i, j) reads the whole row (bb, i, ·). -/
theorem outV_apply (v71 : FVec Ideal S2x64x64 .f32) (bb : Fin 2) (i j : Fin 64) :
    outV v71 (ix3 bb i j) = Ideal.div (v71 (ix3 bb i j)) ((∑ j' : Fin 64, v71 (ix3 bb i j')) + Spec.eps) := by
  unfold outV
  refine congrArg (Ideal.div (v71 (ix3 bb i j))) ?_
  refine (Rank3.bcastLast_apply _ _ bb i j).trans ?_
  refine congrArg₂ (· + ·) ?_ rfl
  refine (Rank3.castAddLast_apply _ _ bb i 0).trans ?_
  exact Rank3.sumLast_apply _ _ _ _ bb i

/-! ## The stored block -/

/-- The self-loop step of the composition is the specification's `loop`, at every (i, j) of the batch element. -/
theorem loop_apply (v36 : FVec Ideal S2x64x64x64 .f32) (v37 : FVec Ideal S64x1 .bf16) (v41 : FVec Ideal S1 .f32)
    (v49 : FVec Ideal S64x64 .f32) (bb : Fin 2) (i j : Fin 64) :
    loopV (symV (mixV (featV v36 v37 v41) v49)) (ix3 bb i j)
      = Spec.loop (fun i j k => v36 (ix4 bb i j k)) (fun k => v37 (ix2 k (0 : Fin 1))) (v41 (ix1 (0 : Fin 1)))
          (fun i j => v49 (ix2 i j)) i j := by
  rw [loopV_apply, symV_apply, mixV_apply, mixV_apply, featV_apply, featV_apply]
  rfl

/-- The value the body stores, at (bb, i, j), is the specification's `tailOut` of batch element bb at (i, j). -/
theorem pay1_apply (v36 : FVec Ideal S2x64x64x64 .f32) (v37 : FVec Ideal S64x1 .bf16) (v41 : FVec Ideal S1 .f32)
    (v49 : FVec Ideal S64x64 .f32) (bb : Fin 2) (i j : Fin 64) :
    Gen.k0_pay1 (F := Ideal) v36 v37 v41 v49 (ix3 bb i j)
      = Spec.tailOut (fun i j k => v36 (ix4 bb i j k)) (fun k => v37 (ix2 k (0 : Fin 1))) (v41 (ix1 (0 : Fin 1)))
          (fun i j => v49 (ix2 i j)) i j := by
  rw [pay1_eq, outV_apply, loop_apply]
  unfold Spec.tailOut
  refine congrArg (fun s => Ideal.div _ (s + Spec.eps)) ?_
  exact Finset.sum_congr rfl fun j' _ => loop_apply v36 v37 v41 v49 bb i j'

end Cert.KernelTail

end
-- ==== Proof.OutBlock.lean ====
/-
  The kernel body's result at one entry of its output block.

  At a grid point the body loads a block of two batch elements of the first argument, the two halves (rows 0 … 127 and
  128 … 255) of the first weight matrix, and the other parameters whole, and stores one block of shape [2, 64, 64].
  Entry (bb, i, j) of the stored block is `Spec.out` of batch element bb of the loaded block: the first sixty operations
  give the second hidden layer (`Cert.KernelHead.pay2_apply`), the remaining ones the normalised adjacency
  (`Cert.KernelTail.pay1_apply`).
-/
import proofs.«130970_j16260746183317_2_alg».proof.Proof.Gen.KernelIdeal.Frame
import proofs.«130970_j16260746183317_2_alg».proof.Proof.Spec
import proofs.«130970_j16260746183317_2_alg».proof.Proof.KernelHead
import proofs.«130970_j16260746183317_2_alg».proof.Proof.KernelTail
import Idealize.ShloMosaic.Lib.Pipeline.Value
import Idealize.ShloMosaic.Lib.ValueIdx

noncomputable section

namespace Cert.OutBlock

open Idealize.ShloMosaic Idealize.ShloMosaic.ValueIdx Cert.KernelIdeal Cert.KernelIdeal.Gen

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Rows 0 … 127 of a 256-row matrix, read at (h, k): row h of the matrix. -/
theorem ld_upper (x2 : Vec Ideal S256x128 .bf16) (h k : Fin 128) :
    View.ld x2 r0_1 (ix2 h k) = x2 (ix2 (Spec.lo h) k) := by
  show x2 (r0_1.idx (ix2 h k)) = _
  refine congrArg x2 (funext fun a => Fin.ext ?_)
  match a with
  | ⟨0, _⟩ => simp only [LoadRect.idx_apply, Rect.off_unit, Rect.stride_unit]; show 0 + 1 * h.val = h.val; omega
  | ⟨1, _⟩ => simp only [LoadRect.idx_apply, Rect.off_unit, Rect.stride_unit]; show 0 + 1 * k.val = k.val; omega

/-- Rows 128 … 255 of a 256-row matrix, read at (h, k): row 128 + h of the matrix. -/
theorem ld_lower (x2 : Vec Ideal S256x128 .bf16) (h k : Fin 128) :
    View.ld x2 r0_2 (ix2 h k) = x2 (ix2 (Spec.hi h) k) := by
  show x2 (r0_2.idx (ix2 h k)) = _
  refine congrArg x2 (funext fun a => Fin.ext ?_)
  match a with
  | ⟨0, _⟩ => simp only [LoadRect.idx_apply, Rect.off_unit, Rect.stride_unit]; show 128 + 1 * h.val = 128 + h.val; omega
  | ⟨1, _⟩ => simp only [LoadRect.idx_apply, Rect.off_unit, Rect.stride_unit]; show 0 + 1 * k.val = k.val; omega

/-- What the body leaves in the output block, entry (bb, i, j): `Spec.out` of batch element bb of the input block and the
    parameters. -/
theorem out0_8_apply (x0 : Vec Ideal S2x64x128x128 .f32) (x1 : Vec Ideal S64x64 .f32) (x2 : Vec Ideal S256x128 .bf16)
    (x3 : Vec Ideal S128 .f32) (x4 : Vec Ideal S128x64 .bf16) (x5 : Vec Ideal S64 .f32) (x6 : Vec Ideal S64x1 .bf16)
    (x7 : Vec Ideal S1 .f32) (bb : Fin 2) (i j : Fin 64) :
    out0_8 x0 x1 x2 x3 x4 x5 x6 x7 (ix3 bb i j)
      = Spec.out (fun n h t => x0 (ix4 bb n h t)) (fun h k => x2 (ix2 (Spec.lo h) k)) (fun h k => x2 (ix2 (Spec.hi h) k))
          (fun k => x3 (ix1 k)) (fun h k => x4 (ix2 h k)) (fun k => x5 (ix1 k)) (fun k => x6 (ix2 k (0 : Fin 1)))
          (x7 (ix1 (0 : Fin 1))) (fun i j => x1 (ix2 i j)) i j := by
  unfold out0_8
  rw [View.canon_unit_zero hz3]
  rw [View.ld_unit_zero (S := S2x64x128x128) hz4, View.ld_unit_zero (S := S128) hz1, View.ld_unit_zero (S := S128x64) hz2,
    View.ld_unit_zero (S := S64) hz1, View.ld_unit_zero (S := S64x1) hz2, View.ld_unit_zero (S := S1) hz1,
    View.ld_unit_zero (S := S64x64) hz2]
  refine (Cert.KernelTail.pay1_apply _ _ _ _ bb i j).trans ?_
  unfold Spec.out
  refine congrArg (fun H => Spec.tailOut H _ _ _ i j) ?_
  funext i' j' k'
  refine (Cert.KernelHead.pay2_apply _ _ _ _ _ _ bb i' j' k').trans ?_
  refine congrArg₂ (fun A B => Spec.hid2 _ A B _ _ _ i' j' k') ?_ ?_
  · funext h k; exact ld_upper x2 h k
  · funext h k; exact ld_lower x2 h k

end Cert.OutBlock

end
-- ==== Proof.Blocks.lean ====
/-
  From blocks to the result array.

  The grid has 32 points; point t loads batch elements 2t and 2t + 1 of the first argument, finds every other operand
  whole, and writes back block t (batch elements 2t, 2t + 1) of the result.  The three weight arrays the host converts
  before the call are the weight arguments themselves on the extended reals, a change of float format being the
  identity there.  So what point t writes back is block t of ONE function of the argument arrays, `result`
  (`flushed_eq`), the 32 blocks cover the result array (`cover`), and the array ends holding `result` (`final`, `run`).
-/
import proofs.«130970_j16260746183317_2_alg».proof.Proof.Gen.KernelIdeal.Value
import proofs.«130970_j16260746183317_2_alg».proof.Proof.Spec
import proofs.«130970_j16260746183317_2_alg».proof.Proof.OutBlock
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value

variable (m : (ℓ : Loc nD τ sig) → Buf (Elt Ideal) ℓ) (ρ : Dev nD → PrngReg)

/-- The result array as the one function of the launch memory's argument arrays. -/
abbrev result (c : Dev nD) : Buf (Elt Ideal) ((c : Thread nD τ).loc main_v3) :=
  Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The printed index maps over the 32 grid points: the input's and the output's blocks move along the batch axis
    with the point, and every other window stays on its one block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val ∧ win0_8.index t (1 : Fin 3) = 0 ∧ win0_8.index t (2 : Fin 3) = 0 :=
  (by decide +kernel : ∀ t : Fin grid0.N, _)

/-- Batch element bb of the input block at point t is batch element 2t + bb of the first argument. -/
theorem iblk0_apply (c : Dev nD) (t : Fin cfg0.N) (bb : Fin 2) (n : Fin 64) (h t' : Fin 128) (b : Fin 64)
    (hb : b.val = 2 * t.val + bb.val) :
    (iblk m c 0 t : Vec Ideal S2x64x128x128 .f32) (ix4 bb n h t')
      = (m ((c : Thread nD τ).loc main_arg0) : S64x64x128x128.Idx → EReal) (ix4 b n h t') := by
  obtain ⟨e0, e1, e2, e3, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 4) * 2 + 1 * bb.val = b.val; rw [e0, hb]; omega
  | ⟨1, _⟩ => show win0_0.index t (1 : Fin 4) * 64 + 1 * n.val = n.val; rw [e1]; omega
  | ⟨2, _⟩ => show win0_0.index t (2 : Fin 4) * 128 + 1 * h.val = h.val; rw [e2]; omega
  | ⟨3, _⟩ => show win0_0.index t (3 : Fin 4) * 128 + 1 * t'.val = t'.val; rw [e3]; omega

/-- Window 1's one block is its whole array. -/
theorem iblk1_eq (c : Dev nD) (t : Fin cfg0.N) :
    (iblk m c 1 t : S64x64.Idx → EReal) = (V m c main_arg1 : S64x64.Idx → EReal) := by
  obtain ⟨-, -, -, -, f10, f11, f20, f21, f30, f40, f41, f50, f60, f61, f70, -⟩ := idx_facts t
  funext x
  unfold iblk
  rw [View.read_apply]
  show V m c main_arg1 _ = V m c main_arg1 x
  refine congrArg _ (funext fun a => Fin.ext ?_)
  match a with
  | ⟨0, _⟩ => show win0_1.index t (0 : Fin 2) * 64 + 1 * (x 0).val = (x 0).val; rw [f10]; omega
  | ⟨1, _⟩ => show win0_1.index t (1 : Fin 2) * 64 + 1 * (x 1).val = (x 1).val; rw [f11]; omega

/-- Window 2's one block is its whole array. -/
theorem iblk2_eq (c : Dev nD) (t : Fin cfg0.N) :
    (iblk m c 2 t : S256x128.Idx → EReal) = (V m c main_v0 : S256x128.Idx → EReal) := by
  obtain ⟨-, -, -, -, f10, f11, f20, f21, f30, f40, f41, f50, f60, f61, f70, -⟩ := idx_facts t
  funext x
  unfold iblk
  rw [View.read_apply]
  show V m c main_v0 _ = V m c main_v0 x
  refine congrArg _ (funext fun a => Fin.ext ?_)
  match a with
  | ⟨0, _⟩ => show win0_2.index t (0 : Fin 2) * 256 + 1 * (x 0).val = (x 0).val; rw [f20]; omega
  | ⟨1, _⟩ => show win0_2.index t (1 : Fin 2) * 128 + 1 * (x 1).val = (x 1).val; rw [f21]; omega

/-- Window 3's one block is its whole array. -/
theorem iblk3_eq (c : Dev nD) (t : Fin cfg0.N) :
    (iblk m c 3 t : S128.Idx → EReal) = (V m c main_arg3 : S128.Idx → EReal) := by
  obtain ⟨-, -, -, -, f10, f11, f20, f21, f30, f40, f41, f50, f60, f61, f70, -⟩ := idx_facts t
  funext x
  unfold iblk
  rw [View.read_apply]
  show V m c main_arg3 _ = V m c main_arg3 x
  refine congrArg _ (funext fun a => Fin.ext ?_)
  match a with
  | ⟨0, _⟩ => show win0_3.index t (0 : Fin 1) * 128 + 1 * (x 0).val = (x 0).val; rw [f30]; omega

/-- Window 4's one block is its whole array. -/
theorem iblk4_eq (c : Dev nD) (t : Fin cfg0.N) :
    (iblk m c 4 t : S128x64.Idx → EReal) = (V m c main_v1 : S128x64.Idx → EReal) := by
  obtain ⟨-, -, -, -, f10, f11, f20, f21, f30, f40, f41, f50, f60, f61, f70, -⟩ := idx_facts t
  funext x
  unfold iblk
  rw [View.read_apply]
  show V m c main_v1 _ = V m c main_v1 x
  refine congrArg _ (funext fun a => Fin.ext ?_)
  match a with
  | ⟨0, _⟩ => show win0_4.index t (0 : Fin 2) * 128 + 1 * (x 0).val = (x 0).val; rw [f40]; omega
  | ⟨1, _⟩ => show win0_4.index t (1 : Fin 2) * 64 + 1 * (x 1).val = (x 1).val; rw [f41]; omega

/-- Window 5's one block is its whole array. -/
theorem iblk5_eq (c : Dev nD) (t : Fin cfg0.N) :
    (iblk m c 5 t : S64.Idx → EReal) = (V m c main_arg5 : S64.Idx → EReal) := by
  obtain ⟨-, -, -, -, f10, f11, f20, f21, f30, f40, f41, f50, f60, f61, f70, -⟩ := idx_facts t
  funext x
  unfold iblk
  rw [View.read_apply]
  show V m c main_arg5 _ = V m c main_arg5 x
  refine congrArg _ (funext fun a => Fin.ext ?_)
  match a with
  | ⟨0, _⟩ => show win0_5.index t (0 : Fin 1) * 64 + 1 * (x 0).val = (x 0).val; rw [f50]; omega

/-- Window 6's one block is its whole array. -/
theorem iblk6_eq (c : Dev nD) (t : Fin cfg0.N) :
    (iblk m c 6 t : S64x1.Idx → EReal) = (V m c main_v2 : S64x1.Idx → EReal) := by
  obtain ⟨-, -, -, -, f10, f11, f20, f21, f30, f40, f41, f50, f60, f61, f70, -⟩ := idx_facts t
  funext x
  unfold iblk
  rw [View.read_apply]
  show V m c main_v2 _ = V m c main_v2 x
  refine congrArg _ (funext fun a => Fin.ext ?_)
  match a with
  | ⟨0, _⟩ => show win0_6.index t (0 : Fin 2) * 64 + 1 * (x 0).val = (x 0).val; rw [f60]; omega
  | ⟨1, _⟩ => show win0_6.index t (1 : Fin 2) * 1 + 1 * (x 1).val = (x 1).val; rw [f61]; omega

/-- Window 7's one block is its whole array. -/
theorem iblk7_eq (c : Dev nD) (t : Fin cfg0.N) :
    (iblk m c 7 t : S1.Idx → EReal) = (V m c main_arg7 : S1.Idx → EReal) := by
  obtain ⟨-, -, -, -, f10, f11, f20, f21, f30, f40, f41, f50, f60, f61, f70, -⟩ := idx_facts t
  funext x
  unfold iblk
  rw [View.read_apply]
  show V m c main_arg7 _ = V m c main_arg7 x
  refine congrArg _ (funext fun a => Fin.ext ?_)
  match a with
  | ⟨0, _⟩ => show win0_7.index t (0 : Fin 1) * 1 + 1 * (x 0).val = (x 0).val; rw [f70]; omega

/-- The three arrays the host prepares before the region are the weight arguments themselves: a change of float
    format is the identity on the extended reals. -/
theorem V_main_v0 (c : Dev nD) : @Eq (S256x128.Idx → EReal) (V m c main_v0) (m ((c : Thread nD τ).loc main_arg2)) := by
  have e : @Eq (S256x128.Idx → EReal) (V m c main_v0) (truncf (F := Ideal) (s := S256x128) (φ := .f32) .bf16 (m ((c : Thread nD τ).loc main_arg2)) bitsLt_bf16_f32) := by
    dsimp only [Gen.V, Gen.hostOps0]; after_results
  exact e
theorem V_main_v1 (c : Dev nD) : @Eq (S128x64.Idx → EReal) (V m c main_v1) (m ((c : Thread nD τ).loc main_arg4)) := by
  have e : @Eq (S128x64.Idx → EReal) (V m c main_v1) (truncf (F := Ideal) (s := S128x64) (φ := .f32) .bf16 (m ((c : Thread nD τ).loc main_arg4)) bitsLt_bf16_f32) := by
    dsimp only [Gen.V, Gen.hostOps0]; after_results
  exact e
theorem V_main_v2 (c : Dev nD) : @Eq (S64x1.Idx → EReal) (V m c main_v2) (m ((c : Thread nD τ).loc main_arg6)) := by
  have e : @Eq (S64x1.Idx → EReal) (V m c main_v2) (truncf (F := Ideal) (s := S64x1) (φ := .f32) .bf16 (m ((c : Thread nD τ).loc main_arg6)) bitsLt_bf16_f32) := by
    dsimp only [Gen.V, Gen.hostOps0]; after_results
  exact e

/-- WHAT POINT t WRITES BACK is block t of `result`: entry (bb, i, j) of the block is `Spec.out` of batch element 2t + bb. -/
theorem flushed_eq (c : Dev nD) (t : Fin cfg0.N) :
    (dats m 0 c).flushed 8 t = ((cfg0.win 8).blk t).view.read (Elt Ideal) (result m c) := by
  rw [flushed8]
  have ht : t.val < 32 := lt_of_lt_of_eq t.isLt N_0
  obtain ⟨-, -, -, -, -, -, -, -, -, -, -, -, -, -, -, g0, g1, g2⟩ := idx_facts t
  funext y
  obtain ⟨bb, i, j, rfl⟩ : ∃ (bb : Fin 2) (i j : Fin 64), y = ix3 bb i j := ⟨y 0, y 1, y 2, eq_ix3 (n0 := 2) (n1 := 64) (n2 := 64) y⟩
  have hbb : bb.val < 2 := bb.isLt
  have he : ((cfg0.win 8).blk t).view.emb (ix3 bb i j) = (ix3 (⟨2 * t.val + bb.val, by omega⟩ : Fin 64) i j : S64x64x64.Idx) := by
    funext a; apply Fin.ext
    match a with
    | ⟨0, _⟩ => show win0_8.index t (0 : Fin 3) * 2 + 1 * bb.val = 2 * t.val + bb.val; rw [g0]; omega
    | ⟨1, _⟩ => show win0_8.index t (1 : Fin 3) * 64 + 1 * i.val = i.val; rw [g1]; omega
    | ⟨2, _⟩ => show win0_8.index t (2 : Fin 3) * 64 + 1 * j.val = j.val; rw [g2]; omega
  show out0_8 (iblk m c 0 t) (iblk m c 1 t) (iblk m c 2 t) (iblk m c 3 t) (iblk m c 4 t) (iblk m c 5 t) (iblk m c 6 t) (iblk m c 7 t) (ix3 bb i j) = result m c (((cfg0.win 8).blk t).view.emb (ix3 bb i j))
  rw [he]
  refine (Cert.OutBlock.out0_8_apply (iblk m c 0 t) (iblk m c 1 t) (iblk m c 2 t) (iblk m c 3 t) (iblk m c 4 t) (iblk m c 5 t) (iblk m c 6 t) (iblk m c 7 t) bb i j).trans ?_
  have e0 : (fun (n : Fin 64) (h t' : Fin 128) => (iblk m c 0 t : Vec Ideal S2x64x128x128 .f32) (ix4 bb n h t'))
      = fun n h t' => (m ((c : Thread nD τ).loc main_arg0) : S64x64x128x128.Idx → EReal) (ix4 (⟨2 * t.val + bb.val, by omega⟩ : Fin 64) n h t') :=
    funext fun n => funext fun h => funext fun t' => iblk0_apply m c t bb n h t' _ rfl
  rw [e0, iblk1_eq m c t, iblk2_eq m c t, iblk3_eq m c t, iblk4_eq m c t, iblk5_eq m c t, iblk6_eq m c t, iblk7_eq m c t,
    V_main_v0, V_main_v1, V_main_v2, V_main_arg1, V_main_arg3, V_main_arg5, V_main_arg7]
  rfl

/-- An index of the result array is in point t's block iff each coordinate is in the block's range on its axis. -/
theorem mem_blk (t : Fin cfg0.N) (i : S64x64x64.Idx) :
    i ∈ ((cfg0.win 8).blk t).view.set ↔ ∀ a : Fin 3, win0_8.index t a * S2x64x64.size a ≤ (i a).val ∧ (i a).val < win0_8.index t a * S2x64x64.size a + S2x64x64.size a := by
  show i ∈ ((View.whole main_v3).slice (win0_8.rect t)).set ↔ _
  rw [View.set_slice_whole, Rect.mem_set_unit]
  exact Iff.rfl

/-- Every index of the result array is in some point's block: batch element b is written by point b / 2. -/
theorem cover (i : S64x64x64.Idx) : ∃ t : Fin cfg0.N, (cfg0.win 8).flush t = true ∧ i ∈ ((cfg0.win 8).blk t).view.set := by
  have hi0 : (i 0).val < 64 := (i 0).isLt
  have hi1 : (i 1).val < 64 := (i 1).isLt
  have hi2 : (i 2).val < 64 := (i 2).isLt
  have hN : cfg0.N = 32 := N_0
  refine ⟨⟨(i 0).val / 2, by rw [hN]; omega⟩, flush0_8 _, ?_⟩
  obtain ⟨-, -, -, -, -, -, -, -, -, -, -, -, -, -, -, g0, g1, g2⟩ := idx_facts ⟨(i 0).val / 2, by rw [hN]; omega⟩
  rw [mem_blk]
  intro a
  match a with
  | ⟨0, _⟩ => show win0_8.index _ (0 : Fin 3) * 2 ≤ (i 0).val ∧ (i 0).val < win0_8.index _ (0 : Fin 3) * 2 + 2; rw [g0]; show (i 0).val / 2 * 2 ≤ (i 0).val ∧ (i 0).val < (i 0).val / 2 * 2 + 2; omega
  | ⟨1, _⟩ => show win0_8.index _ (1 : Fin 3) * 64 ≤ (i 1).val ∧ (i 1).val < win0_8.index _ (1 : Fin 3) * 64 + 64; rw [g1]; omega
  | ⟨2, _⟩ => show win0_8.index _ (2 : Fin 3) * 64 ≤ (i 2).val ∧ (i 2).val < win0_8.index _ (2 : Fin 3) * 64 + 64; rw [g2]; omega

/-- THE RESULT ARRAY after the run is `result`. -/
theorem final (c : Dev nD) : (dats m 0 c).arrAt 8 cfg0.N = result m c :=
  (dats m 0 c).arrAt_eq_of_cover 8 (result m c) (fun t _ => flushed_eq m c t) cover

/-- The run, read: the result array at `result` of the argument arrays, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Blocks

end
-- ==== Proof.LibScaledQuotient.lean ====
/-
  A positive real factor moves through the quotient of the extended reals, at every corner of the quotient.

  The quotient here is `Ideal.div`: `x · y⁻¹` when `y ≠ 0` (with `(±∞)⁻¹ = 0`), and by zero the infinity of the
  dividend's sign, `⊥` for a dividend that is not positive.  For a real `c > 0` and ANY extended reals `x`, `a`, `b`

      x · ((c · a) / b) = (c · x) · (a / b).

  Off zero this is commutativity and associativity of the product, which hold on all of `EReal`.  At `b = 0` both
  quotients are the same infinity, because `c · a` is positive exactly when `a` is; and `x · (±∞)` is one of `⊤`, `0`,
  `⊥`, each of which the factor `c` fixes.  No finiteness of `x`, `a` or `b` is used.

  Also here: the f32 pattern `0x40000000` denotes the real number 2.
-/
import Idealize.ShloMosaic.PureOps.Ideal

noncomputable section

namespace Idealize.ShloMosaic.ScaledQuotient

open Idealize.ShloMosaic

/-- The f32 pattern of `2.0` denotes the real `2`. -/
theorem ofBits_two_f32 : Ideal.ofBits .f32 0x40000000#32 = ((2 : ℝ) : EReal) := by
  simp [Ideal.ofBits, Ideal.ieee, -EReal.coe_mul]; norm_num

/-- A positive real multiple of an extended real is positive exactly when the extended real is. -/
theorem coe_mul_pos_iff {c : ℝ} (hc : 0 < c) (a : EReal) : 0 < (c : EReal) * a ↔ 0 < a := by
  induction a with
  | bot => rw [EReal.coe_mul_bot_of_pos hc]
  | coe r => rw [← EReal.coe_mul, EReal.coe_pos, EReal.coe_pos]; exact mul_pos_iff_of_pos_left hc
  | top => rw [EReal.coe_mul_top_of_pos hc]

/-- `x · ⊤` is `⊤`, `0` or `⊥`, and a positive real factor fixes each. -/
theorem coe_mul_mul_top {c : ℝ} (hc : 0 < c) (x : EReal) : (c : EReal) * (x * ⊤) = x * ⊤ := by
  rcases lt_trichotomy x 0 with h | h | h
  · rw [EReal.mul_top_of_neg h, EReal.coe_mul_bot_of_pos hc]
  · rw [h, zero_mul, mul_zero]
  · rw [EReal.mul_top_of_pos h, EReal.coe_mul_top_of_pos hc]

/-- `x · ⊥` is `⊥`, `0` or `⊤`, and a positive real factor fixes each. -/
theorem coe_mul_mul_bot {c : ℝ} (hc : 0 < c) (x : EReal) : (c : EReal) * (x * ⊥) = x * ⊥ := by
  rcases lt_trichotomy x 0 with h | h | h
  · rw [EReal.mul_bot_of_neg h, EReal.coe_mul_top_of_pos hc]
  · rw [h, zero_mul, mul_zero]
  · rw [EReal.mul_bot_of_pos h, EReal.coe_mul_bot_of_pos hc]

/-- A positive real factor moves from the dividend of a quotient to a factor outside it: for every extended real
    `x`, `a`, `b` (zero and infinite `b` included), `x · ((c · a) / b) = (c · x) · (a / b)`. -/
theorem mul_div_scale {c : ℝ} (hc : 0 < c) (x a b : EReal) :
    x * Ideal.div ((c : EReal) * a) b = ((c : EReal) * x) * Ideal.div a b := by
  unfold Ideal.div
  by_cases hb : b = 0
  · rw [if_pos hb, if_pos hb, mul_assoc]
    by_cases ha : 0 < a
    · rw [if_pos ((coe_mul_pos_iff hc a).2 ha), if_pos ha]
      exact (coe_mul_mul_top hc x).symm
    · rw [if_neg (fun h => ha ((coe_mul_pos_iff hc a).1 h)), if_neg ha]
      exact (coe_mul_mul_bot hc x).symm
  · rw [if_neg hb, if_neg hb, mul_assoc, mul_assoc, mul_left_comm]

end Idealize.ShloMosaic.ScaledQuotient

end
-- ==== Proof.RefSide.lean ====
/-
  The reference program computes the shared specification.

  Each host operation of the reference is read at explicit coordinates and identified, stage by stage, with the
  corresponding function of Spec.lean: the time mean, the two projections of the node features, the two hidden
  layers of an ordered pair, the edge score, its average with the learned matrix, the clipped symmetrisation, the
  self loop and the row normalisation.  The points to bridge: a sum that starts from the f32 zero pattern is the
  plain sum; a maximum against the zero pattern is a maximum against 0; the quotient by the pattern of 2 is the
  product with the pattern of one half on every extended real; and the identity matrix built from two index
  arrays by an integer comparison is the indicator of equal coordinates.
-/
import proofs.«130970_j16260746183317_2_alg».proof.Proof.Gen.ReferenceIdeal.Read
import proofs.«130970_j16260746183317_2_alg».proof.Proof.Spec
import proofs.«130970_j16260746183317_2_alg».proof.Proof.LibScaledQuotient

noncomputable section

open scoped BigOperators

namespace Cert.RefSide

open Cert.ReferenceIdeal Cert.ReferenceIdeal.Read Idealize.ShloMosaic Idealize.ShloMosaic.ValueIdx Cert.Spec

/-- Batch element b of the input array, as a family over node, feature and time. -/
abbrev Xb (x0 : S64x64x128x128.Idx → EReal) (b : Fin 64) : Fin 64 → Fin 128 → Fin 128 → EReal :=
  fun n h t => x0 (ix4 b n h t)
/-- The upper half of the first weight matrix. -/
abbrev Wlo (x2 : S256x128.Idx → EReal) : Fin 128 → Fin 128 → EReal := fun h k => x2 (ix2 (lo h) k)
/-- The lower half of the first weight matrix. -/
abbrev Whi (x2 : S256x128.Idx → EReal) : Fin 128 → Fin 128 → EReal := fun h k => x2 (ix2 (hi h) k)

/-! ## The time mean and the two projections -/

/-- The time mean: the sum from the zero pattern, divided by the pattern of 128. -/
theorem v2_at (x0 : (⟨S64x64x128x128, .f32⟩ : BufTy).Contents (Elt Ideal)) (b n : Fin 64) (h : Fin 128) :
    val_main_v2 (F := Ideal) x0 (ix3 b n h) = node (Xb x0 b) n h := by
  rw [val_main_v2_apply, val_main_v0_apply, val_main_v1_apply, val_main_cst_apply, val_main_cst_0_apply]
  simp only [Ideal.hostDivf_def, Ideal.ofBits_def]
  rw [Ideal.ofBits_zero_f32, zero_add]
  unfold node c128
  refine congrArg (fun s => Ideal.div s _) (Finset.sum_congr rfl fun t _ => ?_)
  exact congrArg x0 (funext fun a => Fin.ext (by
    match a with | ⟨0, _⟩ => rfl | ⟨1, _⟩ => rfl | ⟨2, _⟩ => rfl | ⟨3, _⟩ => rfl))

/-- The projection through the upper half of the first weight matrix. -/
theorem v5_at (x0 : (⟨S64x64x128x128, .f32⟩ : BufTy).Contents (Elt Ideal))
    (x2 : (⟨S256x128, .f32⟩ : BufTy).Contents (Elt Ideal)) (b n : Fin 64) (k : Fin 128) :
    val_main_v5 (F := Ideal) x0 x2 (ix3 b n k) = projI (Xb x0 b) (Wlo x2) n k := by
  rw [val_main_v5_apply]
  unfold projI
  refine Finset.sum_congr rfl fun h _ => ?_
  have el : lidx_main_v5 (ix3 b n k) h = ix3 b n h := funext fun a => Fin.ext (by
    match a with | ⟨0, _⟩ => rfl | ⟨1, _⟩ => rfl | ⟨2, _⟩ => rfl)
  have er : idx_main_v3 (ridx_main_v5 (ix3 b n k) h) = ix2 (lo h) k := funext fun a => Fin.ext (by
    match a with | ⟨0, _⟩ => rfl | ⟨1, _⟩ => rfl)
  rw [val_main_v3_apply, el, er, v2_at]

/-- The projection through the lower half of the first weight matrix. -/
theorem v6_at (x0 : (⟨S64x64x128x128, .f32⟩ : BufTy).Contents (Elt Ideal))
    (x2 : (⟨S256x128, .f32⟩ : BufTy).Contents (Elt Ideal)) (b n : Fin 64) (k : Fin 128) :
    val_main_v6 (F := Ideal) x0 x2 (ix3 b n k) = projJ (Xb x0 b) (Whi x2) n k := by
  rw [val_main_v6_apply]
  unfold projJ
  refine Finset.sum_congr rfl fun h _ => ?_
  have el : lidx_main_v6 (ix3 b n k) h = ix3 b n h := funext fun a => Fin.ext (by
    match a with | ⟨0, _⟩ => rfl | ⟨1, _⟩ => rfl | ⟨2, _⟩ => rfl)
  have er : idx_main_v4 (ridx_main_v6 (ix3 b n k) h) = ix2 (hi h) k := funext fun a => Fin.ext (by
    match a with | ⟨0, _⟩ => rfl | ⟨1, _⟩ => rfl)
  rw [val_main_v4_apply, el, er, v2_at]

/-! ## The two hidden layers -/

/-- The first hidden layer: both projections broadcast over the pair, the bias, and the maximum with zero. -/
theorem v15_at (x0 : (⟨S64x64x128x128, .f32⟩ : BufTy).Contents (Elt Ideal))
    (x2 : (⟨S256x128, .f32⟩ : BufTy).Contents (Elt Ideal)) (x3 : (⟨S128, .f32⟩ : BufTy).Contents (Elt Ideal))
    (b i j : Fin 64) (k : Fin 128) :
    val_main_v15 (F := Ideal) x0 x2 x3 (ix4 b i j k)
      = hid (Xb x0 b) (Wlo x2) (Whi x2) (fun k => x3 (ix1 k)) i j k := by
  have e7 : idx_main_v7 (idx_main_v9 (ix4 b i j k)) = ix3 b i k := funext fun a => Fin.ext (by
    match a with | ⟨0, _⟩ => rfl | ⟨1, _⟩ => rfl | ⟨2, _⟩ => rfl)
  have e8 : idx_main_v8 (idx_main_v10 (ix4 b i j k)) = ix3 b j k := funext fun a => Fin.ext (by
    match a with | ⟨0, _⟩ => rfl | ⟨1, _⟩ => rfl | ⟨2, _⟩ => rfl)
  have e12 : idx_main_v12 (idx_main_v13 (ix4 b i j k)) = ix1 k := funext fun a => Fin.ext (by
    match a with | ⟨0, _⟩ => rfl)
  rw [val_main_v15_apply, val_main_v14_apply, val_main_v11_apply, val_main_v9_apply, val_main_v7_apply,
    val_main_v10_apply, val_main_v8_apply, val_main_v13_apply, val_main_v12_apply, val_main_call0_v0_apply,
    val_main_call0_cst_apply, e7, e8, e12, v5_at, v6_at]
  simp only [Ideal.addf_def, Ideal.maximumf_def, Ideal.ofBits_def]
  rw [Ideal.ofBits_zero_f32]
  rfl

/-- The second hidden layer: the product with the second weight matrix, the bias, and the maximum with zero. -/
theorem v20_at (x0 : (⟨S64x64x128x128, .f32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (b i j k : Fin 64) :
    val_main_v20 (F := Ideal) x0 x2 x3 x4 x5 (ix4 b i j k)
      = hid2 (Xb x0 b) (Wlo x2) (Whi x2) (fun k => x3 (ix1 k)) (fun h k => x4 (ix2 h k)) (fun k => x5 (ix1 k)) i j k := by
  have e17 : idx_main_v17 (idx_main_v18 (ix4 b i j k)) = ix1 k := funext fun a => Fin.ext (by
    match a with | ⟨0, _⟩ => rfl)
  rw [val_main_v20_apply, val_main_v19_apply, val_main_v16_apply, val_main_v18_apply, val_main_v17_apply,
    val_main_call1_v0_apply, val_main_call1_cst_apply, e17]
  simp only [Ideal.addf_def, Ideal.maximumf_def, Ideal.ofBits_def]
  rw [Ideal.ofBits_zero_f32]
  unfold hid2
  refine congrArg (fun s => max (s + _) 0) (Finset.sum_congr rfl fun h _ => ?_)
  have el : lidx_main_v16 (ix4 b i j k) h = ix4 b i j h := funext fun a => Fin.ext (by
    match a with | ⟨0, _⟩ => rfl | ⟨1, _⟩ => rfl | ⟨2, _⟩ => rfl | ⟨3, _⟩ => rfl)
  have er : ridx_main_v16 (ix4 b i j k) h = ix2 h k := funext fun a => Fin.ext (by
    match a with | ⟨0, _⟩ => rfl | ⟨1, _⟩ => rfl)
  rw [el, er, v15_at]

/-! ## The edge score and its average with the learned matrix -/

/-- The second hidden layer of batch element b, as Spec.lean writes it. -/
abbrev H2b (x0 : S64x64x128x128.Idx → EReal) (x2 : S256x128.Idx → EReal) (x3 : S128.Idx → EReal)
    (x4 : S128x64.Idx → EReal) (x5 : S64.Idx → EReal) (b : Fin 64) : Fin 64 → Fin 64 → Fin 64 → EReal :=
  hid2 (Xb x0 b) (Wlo x2) (Whi x2) (fun k => x3 (ix1 k)) (fun h k => x4 (ix2 h k)) (fun k => x5 (ix1 k))

/-- The edge score: the product with the one column of the last weight matrix, plus the last bias. -/
theorem v25_at (x0 : (⟨S64x64x128x128, .f32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal))
    (b i j : Fin 64) :
    val_main_v25 (F := Ideal) x0 x2 x3 x4 x5 x6 x7 (ix3 b i j)
      = feat (H2b x0 x2 x3 x4 x5 b) (fun k => x6 (ix2 k (0 : Fin 1))) (x7 (ix1 (0 : Fin 1))) i j := by
  have e25 : idx_main_v25 (ix3 b i j) = ix4 b i j (0 : Fin 1) := funext fun a => Fin.ext (by
    have hb := b.isLt; have hi := i.isLt; have hj := j.isLt
    match a with
    | ⟨0, _⟩ => show ((b.val * 64 + i.val) * 64 + j.val) / 4096 = b.val; omega
    | ⟨1, _⟩ => show ((b.val * 64 + i.val) * 64 + j.val) / 64 % 64 = i.val; omega
    | ⟨2, _⟩ => show ((b.val * 64 + i.val) * 64 + j.val) / 1 % 64 = j.val; omega
    | ⟨3, _⟩ => rfl)
  have e22 : idx_main_v22 (idx_main_v23 (ix4 b i j (0 : Fin 1))) = ix1 (0 : Fin 1) := funext fun a => Fin.ext (by
    match a with | ⟨0, _⟩ => rfl)
  rw [val_main_v25_apply, e25, val_main_v24_apply, val_main_v21_apply, val_main_v23_apply, val_main_v22_apply, e22]
  simp only [Ideal.addf_def]
  unfold feat
  refine congrArg (fun s => s + _) (Finset.sum_congr rfl fun k _ => ?_)
  have el : lidx_main_v21 (ix4 b i j (0 : Fin 1)) k = ix4 b i j k := funext fun a => Fin.ext (by
    match a with | ⟨0, _⟩ => rfl | ⟨1, _⟩ => rfl | ⟨2, _⟩ => rfl | ⟨3, _⟩ => rfl)
  have er : ridx_main_v21 (ix4 b i j (0 : Fin 1)) k = ix2 k (0 : Fin 1) := funext fun a => Fin.ext (by
    match a with | ⟨0, _⟩ => rfl | ⟨1, _⟩ => rfl)
  rw [el, er, v20_at]

/-- The learned matrix, over its two coordinates. -/
abbrev Amat (x1 : S64x64.Idx → EReal) : Fin 64 → Fin 64 → EReal := fun i j => x1 (ix2 i j)
/-- The one column of the last weight matrix. -/
abbrev w3col (x6 : S64x1.Idx → EReal) : Fin 64 → EReal := fun k => x6 (ix2 k (0 : Fin 1))

/-- The score averaged with the learned matrix, both halves by the pattern of one half. -/
theorem v32_at (x0 : (⟨S64x64x128x128, .f32⟩ : BufTy).Contents (Elt Ideal)) (x1 : (⟨S64x64, .f32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal))
    (b i j : Fin 64) :
    val_main_v32 (F := Ideal) x0 x1 x2 x3 x4 x5 x6 x7 (ix3 b i j)
      = mix (H2b x0 x2 x3 x4 x5 b) (w3col x6) (x7 (ix1 (0 : Fin 1))) (Amat x1) i j := by
  have e26 : idx_main_v26 (idx_main_v31 (ix3 b i j)) = ix2 i j := funext fun a => Fin.ext (by
    match a with | ⟨0, _⟩ => rfl | ⟨1, _⟩ => rfl)
  rw [val_main_v32_apply, val_main_v31_apply, val_main_v28_apply, val_main_v27_apply, val_main_cst_1_apply,
    val_main_v26_apply, e26, val_main_v30_apply, val_main_v29_apply, val_main_cst_2_apply, v25_at]
  simp only [Ideal.addf_def, Ideal.mulf_def, Ideal.ofBits_def]
  rfl

/-! ## The symmetrisation, the self loop and the row normalisation -/

/-- The f32 pattern of 0.5 denotes the real 1/2. -/
theorem ofBits_half : Ideal.ofBits .f32 0x3F000000#32 = ((1 / 2 : ℝ) : EReal) := by
  simp [Ideal.ofBits, Ideal.ieee, -EReal.coe_mul]; norm_num

/-- The f32 pattern of 1.0 denotes 1. -/
theorem ofBits_one : Ideal.ofBits .f32 0x3F800000#32 = 1 := by
  simp [Ideal.ofBits, Ideal.ieee, -EReal.coe_mul]; norm_num

/-- On every extended real, the quotient by the pattern of 2.0 is the product with the pattern of 0.5. -/
theorem div_two_eq_mul_half (x : EReal) : Ideal.div x (Ideal.ofBits .f32 0x40000000#32) = x * half := by
  unfold half
  rw [ScaledQuotient.ofBits_two_f32, ofBits_half, Ideal.div_coe (by norm_num : (2 : ℝ) ≠ 0)]

/-- Symmetrised, halved and clipped at zero. -/
theorem v37_at (x0 : (⟨S64x64x128x128, .f32⟩ : BufTy).Contents (Elt Ideal)) (x1 : (⟨S64x64, .f32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal))
    (b i j : Fin 64) :
    val_main_v37 (F := Ideal) x0 x1 x2 x3 x4 x5 x6 x7 (ix3 b i j)
      = sym (H2b x0 x2 x3 x4 x5 b) (w3col x6) (x7 (ix1 (0 : Fin 1))) (Amat x1) i j := by
  have e33 : idx_main_v33 (ix3 b i j) = ix3 b j i := funext fun a => Fin.ext (by
    match a with | ⟨0, _⟩ => rfl | ⟨1, _⟩ => rfl | ⟨2, _⟩ => rfl)
  rw [val_main_v37_apply, val_main_v36_apply, val_main_v34_apply, val_main_v33_apply, e33, val_main_v35_apply,
    val_main_cst_3_apply, val_main_call2_v0_apply, val_main_call2_cst_apply, v32_at, v32_at]
  simp only [Ideal.addf_def, Ideal.maximumf_def, Ideal.hostDivf_def, Ideal.ofBits_def]
  rw [Ideal.ofBits_zero_f32, div_two_eq_mul_half]
  rfl

/-- The 32-bit words of two coordinates below 64 are equal exactly when the coordinates are. -/
theorem word_eq_iff (i j : Fin 64) : BitVec.ofNat 32 i.val = BitVec.ofNat 32 j.val ↔ i = j := by
  constructor
  · intro h
    have h' := congrArg BitVec.toNat h
    simp only [BitVec.toNat_ofNat] at h'
    have hi := i.isLt
    have hj := j.isLt
    exact Fin.ext (by omega)
  · rintro rfl; rfl

/-- An entry of the identity matrix: the comparison bit of the two coordinate words, read as a float. -/
theorem eye_entry (i j : Fin 64) :
    FloatOps.uitofp (F := Ideal) .f32
        (IntOp.cmpi .eq (IntOp.addi (BitVec.ofNat 32 i.val) 0#32) (BitVec.ofNat 32 j.val))
      = if i = j then one else 0 := by
  show (((IntOp.cmpi .eq (IntOp.addi (BitVec.ofNat 32 i.val) 0#32) (BitVec.ofNat 32 j.val)).toNat : ℝ) : EReal) = _
  unfold IntOp.cmpi IntOp.addi one
  rw [BitVec.add_zero, ofBits_one]
  by_cases h : i = j
  · subst h; simp
  · have hne : ¬ (BitVec.ofNat 32 i.val = BitVec.ofNat 32 j.val) := fun e => h ((word_eq_iff i j).1 e)
    simp [h, hne]

/-- The identity matrix, broadcast over the batch. -/
theorem v45_at (b i j : Fin 64) : val_main_v45 (F := Ideal) (ix3 b i j) = if i = j then one else 0 := by
  have e44 : idx_main_v44 (idx_main_v45 (ix3 b i j)) = ix2 i j := funext fun a => Fin.ext (by
    match a with | ⟨0, _⟩ => rfl | ⟨1, _⟩ => rfl)
  rw [val_main_v45_apply, val_main_v44_apply, e44, val_main_v43_apply, val_main_v42_apply, val_main_v41_apply,
    val_main_v38_apply, val_main_v40_apply, val_main_c_apply, val_main_v39_apply]
  exact eye_entry i j

/-- With the self loop. -/
theorem v46_at (x0 : (⟨S64x64x128x128, .f32⟩ : BufTy).Contents (Elt Ideal)) (x1 : (⟨S64x64, .f32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal))
    (b i j : Fin 64) :
    val_main_v46 (F := Ideal) x0 x1 x2 x3 x4 x5 x6 x7 (ix3 b i j)
      = loop (H2b x0 x2 x3 x4 x5 b) (w3col x6) (x7 (ix1 (0 : Fin 1))) (Amat x1) i j := by
  rw [val_main_v46_apply, v37_at, v45_at]
  rfl

/-- Every row divided by its sum plus the small constant. -/
theorem v52_at (x0 : (⟨S64x64x128x128, .f32⟩ : BufTy).Contents (Elt Ideal)) (x1 : (⟨S64x64, .f32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal))
    (b i j : Fin 64) :
    val_main_v52 (F := Ideal) x0 x1 x2 x3 x4 x5 x6 x7 (ix3 b i j)
      = tailOut (H2b x0 x2 x3 x4 x5 b) (w3col x6) (x7 (ix1 (0 : Fin 1))) (Amat x1) i j := by
  have e48 : idx_main_v48 (idx_main_v51 (ix3 b i j)) = ix2 b i := funext fun a => Fin.ext (by
    match a with | ⟨0, _⟩ => rfl | ⟨1, _⟩ => rfl)
  rw [val_main_v52_apply, val_main_v51_apply, val_main_v50_apply, val_main_v48_apply, e48, val_main_v47_apply,
    val_main_v49_apply, val_main_cst_5_apply, val_main_cst_4_apply, v46_at]
  simp only [Ideal.addf_def, Ideal.hostDivf_def, Ideal.ofBits_def]
  rw [Ideal.ofBits_zero_f32, zero_add]
  unfold tailOut eps
  refine congrArg (fun s => Ideal.div _ (s + _)) (Finset.sum_congr rfl fun k _ => ?_)
  have e47 : idx_main_v47 (ix2 b i) k = ix3 b i k := funext fun a => Fin.ext (by
    match a with | ⟨0, _⟩ => rfl | ⟨1, _⟩ => rfl | ⟨2, _⟩ => rfl)
  rw [e47, v46_at]

/-! ## The whole reference -/

/-- The reference's result array is the specification's, entry by entry. -/
theorem ref_eq
    (x0 : (⟨Cert.ReferenceIdeal.S64x64x128x128, .f32⟩ : BufTy).Contents (Elt Ideal)) (x1 : (⟨Cert.ReferenceIdeal.S64x64, .f32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal))
    (x4 : (⟨Cert.ReferenceIdeal.S128x64, .f32⟩ : BufTy).Contents (Elt Ideal)) (x5 : (⟨Cert.ReferenceIdeal.S64, .f32⟩ : BufTy).Contents (Elt Ideal))
    (x6 : (⟨Cert.ReferenceIdeal.S64x1, .f32⟩ : BufTy).Contents (Elt Ideal)) (x7 : (⟨Cert.ReferenceIdeal.S1, .f32⟩ : BufTy).Contents (Elt Ideal)) :
    Cert.ReferenceIdeal.Read.val_main_v52 (F := Ideal) x0 x1 x2 x3 x4 x5 x6 x7 = Cert.Spec.G x0 x1 x2 x3 x4 x5 x6 x7 := by
  funext y
  obtain ⟨b, i, j, rfl⟩ : ∃ (b i j : Fin 64), y = ix3 b i j := ⟨y 0, y 1, y 2, eq_ix3 y⟩
  rw [v52_at]
  rfl

end Cert.RefSide

end
-- ==== Proof.lean ====
/-
  The kernel and its reference compute one function of the arguments on the extended reals.

  Both programs take, per batch element, the time means of the node features, push them through the two halves of the
  first weight matrix, combine every ordered pair of nodes through two clipped affine layers into an edge score,
  average the score with a learned matrix, symmetrise and clip, add the identity, and divide every row by its sum plus
  a small constant (`Cert.Spec`).  They differ only in arrangement: the kernel works on blocks of two batch elements
  with the pair axes flattened into matrix rows, takes the last layer as a product with a broadcast row followed by a
  lane sum, halves by multiplying with ½ where the reference divides by 2, and builds the identity by a select where the
  reference converts a comparison bit.  None of this needs the inputs to be finite: x · ½ = x / 2 holds for every
  extended real, and everything else is a re-indexing.

  The kernel's result array after its run is `Cert.KernelIdeal.Blocks.result` (the generated blockwise run, the body's
  value at an entry, the 32 blocks covering the array); the reference's is the same function (`Cert.RefSide.ref_eq`, over
  the generated run of the reference read one operation at a time).  The three frames are the generated ones, and the
  ideal pass rewrote nothing, so `preserves` is trivial.
-/
import proofs.«130970_j16260746183317_2_alg».proof.Defs
import proofs.«130970_j16260746183317_2_alg».proof.Proof.Gen.Kernel
import proofs.«130970_j16260746183317_2_alg».proof.Proof.Gen.Kernel.Skeleton
import proofs.«130970_j16260746183317_2_alg».proof.Proof.Gen.Kernel.Launch
import proofs.«130970_j16260746183317_2_alg».proof.Proof.Gen.Kernel.Points
import proofs.«130970_j16260746183317_2_alg».proof.Proof.Gen.Kernel.Frame
import proofs.«130970_j16260746183317_2_alg».proof.Proof.Gen.KernelIdeal
import proofs.«130970_j16260746183317_2_alg».proof.Proof.Gen.KernelIdeal.Skeleton
import proofs.«130970_j16260746183317_2_alg».proof.Proof.Gen.KernelIdeal.Launch
import proofs.«130970_j16260746183317_2_alg».proof.Proof.Gen.KernelIdeal.Points
import proofs.«130970_j16260746183317_2_alg».proof.Proof.Gen.KernelIdeal.Frame
import proofs.«130970_j16260746183317_2_alg».proof.Proof.Gen.KernelIdeal.Value
import proofs.«130970_j16260746183317_2_alg».proof.Proof.Gen.ReferenceIdeal
import proofs.«130970_j16260746183317_2_alg».proof.Proof.Gen.ReferenceIdeal.Run
import proofs.«130970_j16260746183317_2_alg».proof.Proof.Gen.ReferenceIdeal.Read
import proofs.«130970_j16260746183317_2_alg».proof.Proof.Gen.Pre_finite_inputs
import proofs.«130970_j16260746183317_2_alg».proof.Proof.Blocks
import proofs.«130970_j16260746183317_2_alg».proof.Proof.RefSide
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, fun m ρ _ => ?_, trivial, ?_⟩
  · -- the reference has no kernel: its frame is its run with the result dropped
    exact (θ_run Cert.ReferenceIdeal.defs _ _).mono (fun _ h c => (h c).2) (Cert.ReferenceIdeal.Value.run (F := Ideal) m ρ)
  · -- both runs end with the result array at the same function of arguments that agree
    intro m ρ m' ρ' _ hagree
    refine ⟨fun c => Cert.KernelIdeal.Blocks.result m c, Cert.KernelIdeal.Blocks.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, Cert.RefSide.ref_eq]
    obtain ⟨h0, h1, h2, h3, h4, h5, h6, h7⟩ := hagree c
    rw [h0, h1, h2, h3, h4, h5, h6, h7]⟩

end Cert.Proof

end
